-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S2048x512 : Shape := ⟨2, ![2048, 512]⟩
abbrev S1024x4 : Shape := ⟨2, ![1024, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S36x512 : Shape := ⟨2, ![36, 512]⟩
abbrev S36 : Shape := ⟨1, ![36]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S1024x4 : S_.BroadcastsInDim S1024x4 (![] : Fin 0 → Fin S1024x4.rank)
  reducesTo_S1024x4_S_d0_1 : S1024x4.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S1024x16 : S_.BroadcastsInDim S1024x16 (![] : Fin 0 → Fin S1024x16.rank)
  reducesTo_S1024x16_S_d0_1 : S1024x16.ReducesTo [0, 1] S_
  bcast_S_S512x1024 : S_.BroadcastsInDim S512x1024 (![] : Fin 0 → Fin S512x1024.rank)
  reducesTo_S512x1024_S_d0_1 : S512x1024.ReducesTo [0, 1] S_
  bcast_S_S36x512 : S_.BroadcastsInDim S36x512 (![] : Fin 0 → Fin S36x512.rank)
  reducesTo_S36x512_S_d0_1 : S36x512.ReducesTo [0, 1] S_
  bcast_S_S36 : S_.BroadcastsInDim S36 (![] : Fin 0 → Fin S36.rank)
  reducesTo_S36_S_d0 : S36.ReducesTo [0] S_

variable [Facts]

def fn_part3 {F : FTy → Type} [FloatOps F] (main_arg11 : FVec F S36 .f32) (main_v48 : IVec S_ 1) (main_v49 : FVec F S36x512 .f32) (main_v50 : FVec F S36x512 .f32) : IVec S_ 1 :=
  let main_v51 : IVec S36x512 1 := cmpf .olt main_v49 main_v50
  let main_c_19 : IVec S_ 1 := constantI S_ 1 1#1
  let main_v52 : IVec S_ 1 := (fun x v => Host.reduce IntOp.andi x v reducesTo_S36x512_S_d0_1 h_S_) main_v51 main_c_19
  let main_v53 : IVec S_ 1 := andi main_v48 main_v52
  let main_v54 : FVec F S36 .f32 := Host.absf main_arg11
  let main_cst_20 : FVec F S_ .f32 := constant S_ .f32 0x7F800000#32
  let main_v55 : FVec F S36 .f32 := broadcastInDim S36 ![] bcast_S_S36 main_cst_20
  let main_v56 : IVec S36 1 := cmpf .olt main_v54 main_v55
  let main_c_21 : IVec S_ 1 := constantI S_ 1 1#1
  let main_v57 : IVec S_ 1 := (fun x v => Host.reduce IntOp.andi x v reducesTo_S36_S_d0 h_S_) main_v56 main_c_21
  let main_v58 : IVec S_ 1 := andi main_v53 main_v57
  main_v58

def fn_part2 {F : FTy → Type} [FloatOps F] (main_arg7 : FVec F S1024x16 .f32) (main_arg8 : FVec F S1024 .f32) (main_arg9 : FVec F S512x1024 .f32) (main_arg10 : FVec F S36x512 .f32) (main_arg11 : FVec F S36 .f32) (main_v33 : IVec S_ 1) : IVec S_ 1 :=
  let main_v34 : FVec F S1024x16 .f32 := Host.absf main_arg7
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S36x512 .f32 := Host.absf main_arg10
  let main_cst_18 : FVec F S_ .f32 := constant S_ .f32 0x7F800000#32
  let main_v50 : FVec F S36x512 .f32 := broadcastInDim S36x512 ![] bcast_S_S36x512 main_cst_18
  fn_part3 (F := F) main_arg11 main_v48 main_v49 main_v50

def fn_part1 {F : FTy → Type} [FloatOps F] (main_arg4 : FVec F S64x1024 .f32) (main_arg5 : FVec F S1024x32 .f32) (main_arg6 : FVec F S1024 .f32) (main_arg7 : FVec F S1024x16 .f32) (main_arg8 : FVec F S1024 .f32) (main_arg9 : FVec F S512x1024 .f32) (main_arg10 : FVec F S36x512 .f32) (main_arg11 : FVec F S36 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S1024x32 .f32 := Host.absf main_arg5
  let main_cst_8 : FVec F S_ .f32 := constant S_ .f32 0x7F800000#32
  let main_v25 : FVec F S1024x32 .f32 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x2048x512 .f32) (main_arg1 : FVec F S2048x512 .f32) (main_arg2 : FVec F S1024x4 .f32) (main_arg3 : FVec F S1024 .f32) (main_arg4 : FVec F S64x1024 .f32) (main_arg5 : FVec F S1024x32 .f32) (main_arg6 : FVec F S1024 .f32) (main_arg7 : FVec F S1024x16 .f32) (main_arg8 : FVec F S1024 .f32) (main_arg9 : FVec F S512x1024 .f32) (main_arg10 : FVec F S36x512 .f32) (main_arg11 : FVec F S36 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S32x2048x512 : Shape := ⟨3, ![32, 2048, 512]⟩
abbrev S2048x512 : Shape := ⟨2, ![2048, 512]⟩
abbrev S1024x4 : Shape := ⟨2, ![1024, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S36x512 : Shape := ⟨2, ![36, 512]⟩
abbrev S36 : Shape := ⟨1, ![36]⟩
abbrev S65536x512 : Shape := ⟨2, ![65536, 512]⟩
abbrev S512x2048 : Shape := ⟨2, ![512, 2048]⟩
abbrev S1024x64 : Shape := ⟨2, ![1024, 64]⟩
abbrev S32x1024 : Shape := ⟨2, ![32, 1024]⟩
abbrev S36x1024 : Shape := ⟨2, ![36, 1024]⟩
abbrev S1024x36 : Shape := ⟨2, ![1024, 36]⟩
abbrev S1024x1 : Shape := ⟨2, ![1024, 1]⟩
abbrev S1x1024 : Shape := ⟨2, ![1, 1024]⟩
abbrev S1x36 : Shape := ⟨2, ![1, 36]⟩
abbrev S65536x36 : Shape := ⟨2, ![65536, 36]⟩
abbrev S1024x512 : Shape := ⟨2, ![1024, 512]⟩
abbrev S1024x2048 : Shape := ⟨2, ![1024, 2048]⟩
abbrev S1024x1024 : Shape := ⟨2, ![1024, 1024]⟩
abbrev S32x2048x6x6 : Shape := ⟨4, ![32, 2048, 6, 6]⟩

abbrev nBuf : Space → Nat
  | .hbm => 31
  | .vmem => 13
  | .smem => 0
  | _ => 0

abbrev bufTy : (tb : Table) → Fin (tcTables nBuf tb) → BufTy
  | .hbm, ⟨0, _⟩ => ⟨S32x2048x512, .f32⟩
  | .hbm, ⟨1, _⟩ => ⟨S2048x512, .f32⟩
  | .hbm, ⟨2, _⟩ => ⟨S1024x4, .f32⟩
  | .hbm, ⟨3, _⟩ => ⟨S1024, .f32⟩
  | .hbm, ⟨4, _⟩ => ⟨S64x1024, .f32⟩
  | .hbm, ⟨5, _⟩ => ⟨S1024x32, .f32⟩
  | .hbm, ⟨6, _⟩ => ⟨S1024, .f32⟩
  | .hbm, ⟨7, _⟩ => ⟨S1024x16, .f32⟩
  | .hbm, ⟨8, _⟩ => ⟨S1024, .f32⟩
  | .hbm, ⟨9, _⟩ => ⟨S512x1024, .f32⟩
  | .hbm, ⟨10, _⟩ => ⟨S36x512, .f32⟩
  | .hbm, ⟨11, _⟩ => ⟨S36, .f32⟩
  | .hbm, ⟨12, _⟩ => ⟨S65536x512, .f32⟩
  | .hbm, ⟨13, _⟩ => ⟨S512x2048, .f32⟩
  | .hbm, ⟨14, _⟩ => ⟨S512x2048, .bf16⟩
  | .hbm, ⟨15, _⟩ => ⟨S1024x64, .f32⟩
  | .hbm, ⟨16, _⟩ => ⟨S1024x64, .bf16⟩
  | .hbm, ⟨17, _⟩ => ⟨S32x1024, .f32⟩
  | .hbm, ⟨18, _⟩ => ⟨S32x1024, .bf16⟩
  | .hbm, ⟨19, _⟩ => ⟨S36x1024, .f32⟩
  | .hbm, ⟨20, _⟩ => ⟨S1024x36, .f32⟩
  | .hbm, ⟨21, _⟩ => ⟨S1024x36, .bf16⟩
  | .hbm, ⟨22, _⟩ => ⟨S1024x1, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x36, .f32⟩
  | .hbm, ⟨29, _⟩ => ⟨S65536x36, .f32⟩
  | .hbm, ⟨30, _⟩ => ⟨S32x2048x6x6, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S1x1024, .f32⟩
  | .local _ .vmem, ⟨4, _⟩ => ⟨S1x1024, .f32⟩
  | .local _ .vmem, ⟨5, _⟩ => ⟨S1024x64, .bf16⟩
  | .local _ .vmem, ⟨6, _⟩ => ⟨S32x1024, .bf16⟩
  | .local _ .vmem, ⟨7, _⟩ => ⟨S1x1024, .f32⟩
  | .local _ .vmem, ⟨8, _⟩ => ⟨S1x1024, .f32⟩
  | .local _ .vmem, ⟨9, _⟩ => ⟨S1024x36, .bf16⟩
  | .local _ .vmem, ⟨10, _⟩ => ⟨S1x36, .f32⟩
  | .local _ .vmem, ⟨11, _⟩ => ⟨S1024x36, .f32⟩
  | .local _ .vmem, ⟨12, _⟩ => ⟨S1024x36, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x36 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x36 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x36 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S32x2048x512_S65536x512 : S32x2048x512.ShapeCasts S65536x512
  transposes_S2048x512_S512x2048_1_0 : S2048x512.Transposes [1, 0] S512x2048
  bitsLt_bf16_f32 : FTy.bits .bf16 < FTy.bits .f32
  transposes_S64x1024_S1024x64_1_0 : S64x1024.Transposes [1, 0] S1024x64
  transposes_S1024x32_S32x1024_1_0 : S1024x32.Transposes [1, 0] S32x1024
  transposes_S36x1024_S1024x36_1_0 : S36x1024.Transposes [1, 0] S1024x36
  slices_S1024x4_S1024x1_0_3 : S1024x4.Slices ![0, 3] S1024x1
  shapeCasts_S1024x1_S1024 : S1024x1.ShapeCasts S1024
  shapeCasts_S1024_S1x1024 : S1024.ShapeCasts S1x1024
  shapeCasts_S36_S1x36 : S36.ShapeCasts S1x36
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S1024x2048_o0_0_S1024x1024 : S1024x2048.Slices ![0, 0] S1024x1024
  slices_S1024x2048_o0_1024_S1024x1024 : S1024x2048.Slices ![0, 1024] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S1024x64_o0_0_S1024x32 : S1024x64.Slices ![0, 0] S1024x32
  slices_S1024x64_o0_32_S1024x16 : S1024x64.Slices ![0, 32] S1024x16
  slices_S1024x64_o0_48_S1024x16 : S1024x64.Slices ![0, 48] S1024x16
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  reduces_S1024x16_S1024 : S1024x16.Reduces [1] S1024
  shapeCasts_S1024_S1024x1 : S1024.ShapeCasts S1024x1
  broadcasts_S1024x1_S1024x1024 : S1024x1.Broadcasts S1024x1024
  inb_S1024x36_S1024x36_0_0 : ∀ a, (![0, 0] : Fin 2 → Nat) a + S1024x36.size a ≤ S1024x36.size a
  h_S1024x36 : 0 < S1024x36.numel
  shapeCasts_S1024x36_S1024x36 : S1024x36.ShapeCasts S1024x36
  inb_S1x36_S1x36_0_0 : ∀ a, (![0, 0] : Fin 2 → Nat) a + S1x36.size a ≤ S1x36.size a
  h_S1x36 : 0 < S1x36.numel
  shapeCasts_S1x36_S1x36 : S1x36.ShapeCasts S1x36
  broadcasts_S1x36_S1024x36 : S1x36.Broadcasts S1024x36
  shapeCasts_S65536x36_S32x2048x6x6 : S65536x36.ShapeCasts S32x2048x6x6
  dot_S36x512_S512x1024_S36x1024_1_0_0_1_n_n_wf : DotDims.WF S36x512 S512x1024 S36x1024 [1] [0] [0] [1] [] []
  dot_S1024x512_S512x2048_S1024x2048_1_0_0_1_n_n_wf : DotDims.WF S1024x512 S512x2048 S1024x2048 [1] [0] [0] [1] [] []
  dot_S1024x1024_S1024x64_S1024x64_1_0_0_1_n_n_wf : DotDims.WF S1024x1024 S1024x64 S1024x64 [1] [0] [0] [1] [] []
  dot_S1024x32_S32x1024_S1024x1024_1_0_0_1_n_n_wf : DotDims.WF S1024x32 S32x1024 S1024x1024 [1] [0] [0] [1] [] []
  dot_S1024x1024_S1024x36_S1024x36_1_0_0_1_n_n_wf : DotDims.WF S1024x1024 S1024x36 S1024x36 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .bf16 = 32 ∨ (Rect.block (s := S32x1024) S32x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x36.size a ≤ S1024x36.size a
  hwx0_8 : ∀ i : grid0.Coords, EltTy.bits .bf16 = 32 ∨ (Rect.block (s := S1024x36) S1024x36.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x36.size a ≤ S1x36.size a
  hwx0_9 : ∀ i : grid0.Coords, EltTy.bits .f32 = 32 ∨ (Rect.block (s := S1x36) S1x36.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x36.size a ≤ S65536x36.size a
  hwx0_10 : ∀ i : grid0.Coords, EltTy.bits .f32 = 32 ∨ (Rect.block (s := S65536x36) S1024x36.size (cc0_transform_10 i) (hinb0_10 i)).WholeWords (EltTy.packing .f32)

variable [Facts₀]

def dot_S36x512_S512x1024_S36x1024_1_0_0_1_n_n : DotDims S36x512 S512x1024 S36x1024 where
  lhsContracting := [1]
  rhsContracting := [0]
  lhsNonContracting := [0]
  rhsNonContracting := [1]
  lhsBatch := []
  rhsBatch := []
  wf := dot_S36x512_S512x1024_S36x1024_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x1024_S1024x36_S1024x36_1_0_0_1_n_n : DotDims S1024x1024 S1024x36 S1024x36 where
  lhsContracting := [1]
  rhsContracting := [0]
  lhsNonContracting := [0]
  rhsNonContracting := [1]
  lhsBatch := []
  rhsBatch := []
  wf := dot_S1024x1024_S1024x36_S1024x36_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x36.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x36.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1024x36.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S2048x512 : Shape := ⟨2, ![2048, 512]⟩
abbrev S1024x4 : Shape := ⟨2, ![1024, 4]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S36x512 : Shape := ⟨2, ![36, 512]⟩
abbrev S36 : Shape := ⟨1, ![36]⟩
abbrev S65536x512 : Shape := ⟨2, ![65536, 512]⟩
abbrev S512x2048 : Shape := ⟨2, ![512, 2048]⟩
abbrev S65536x2048 : Shape := ⟨2, ![65536, 2048]⟩
abbrev S65536x1024 : Shape := ⟨2, ![65536, 1024]⟩
abbrev S1024x1 : Shape := ⟨2, ![1024, 1]⟩
abbrev S1x1024 : Shape := ⟨2, ![1, 1024]⟩
abbrev S_ : Shape := ⟨0, ![]⟩
abbrev S1024x64 : Shape := ⟨2, ![1024, 64]⟩
abbrev S65536x64 : Shape := ⟨2, ![65536, 64]⟩
abbrev S65536x32 : Shape := ⟨2, ![65536, 32]⟩
abbrev S65536x16 : Shape := ⟨2, ![65536, 16]⟩
abbrev S32x1024 : Shape := ⟨2, ![32, 1024]⟩
abbrev S65536 : Shape := ⟨1, ![65536]⟩
abbrev S65536x1 : Shape := ⟨2, ![65536, 1]⟩
abbrev S1024x512 : Shape := ⟨2, ![1024, 512]⟩
abbrev S512x36 : Shape := ⟨2, ![512, 36]⟩
abbrev S65536x36 : Shape := ⟨2, ![65536, 36]⟩
abbrev S1x36 : Shape := ⟨2, ![1, 36]⟩
abbrev S32x2048x6x6 : Shape := ⟨4, ![32, 2048, 6, 6]⟩

abbrev nBuf : Space → Nat
  | .hbm => 87
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S2048x512, .f32⟩
  | .hbm, ⟨2, _⟩ => ⟨S1024x4, .f32⟩
  | .hbm, ⟨3, _⟩ => ⟨S1024, .f32⟩
  | .hbm, ⟨4, _⟩ => ⟨S64x1024, .f32⟩
  | .hbm, ⟨5, _⟩ => ⟨S1024x32, .f32⟩
  | .hbm, ⟨6, _⟩ => ⟨S1024, .f32⟩
  | .hbm, ⟨7, _⟩ => ⟨S1024x16, .f32⟩
  | .hbm, ⟨8, _⟩ => ⟨S1024, .f32⟩
  | .hbm, ⟨9, _⟩ => ⟨S512x1024, .f32⟩
  | .hbm, ⟨10, _⟩ => ⟨S36x512, .f32⟩
  | .hbm, ⟨11, _⟩ => ⟨S36, .f32⟩
  | .hbm, ⟨12, _⟩ => ⟨S65536x512, .f32⟩
  | .hbm, ⟨13, _⟩ => ⟨S512x2048, .f32⟩
  | .hbm, ⟨14, _⟩ => ⟨S65536x2048, .f32⟩
  | .hbm, ⟨15, _⟩ => ⟨S65536x1024, .f32⟩
  | .hbm, ⟨16, _⟩ => ⟨S65536x1024, .f32⟩
  | .hbm, ⟨17, _⟩ => ⟨S1024x1, .f32⟩
  | .hbm, ⟨18, _⟩ => ⟨S1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S1024x64, .f32⟩
  | .hbm, ⟨35, _⟩ => ⟨S65536x64, .f32⟩
  | .hbm, ⟨36, _⟩ => ⟨S65536x32, .f32⟩
  | .hbm, ⟨37, _⟩ => ⟨S65536x16, .f32⟩
  | .hbm, ⟨38, _⟩ => ⟨S65536x16, .f32⟩
  | .hbm, ⟨39, _⟩ => ⟨S32x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .i1⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S65536x1024, .f32⟩
  | .hbm, ⟨58, _⟩ => ⟨S65536x16, .f32⟩
  | .hbm, ⟨59, _⟩ => ⟨S_, .f32⟩
  | .hbm, ⟨60, _⟩ => ⟨S65536, .f32⟩
  | .hbm, ⟨61, _⟩ => ⟨S65536x1, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S1x1024, .f32⟩
  | .hbm, ⟨66, _⟩ => ⟨S65536x1024, .f32⟩
  | .hbm, ⟨67, _⟩ => ⟨S65536x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S_, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S65536x1024, .f32⟩
  | .hbm, ⟨79, _⟩ => ⟨S1024x512, .f32⟩
  | .hbm, ⟨80, _⟩ => ⟨S65536x512, .f32⟩
  | .hbm, ⟨81, _⟩ => ⟨S512x36, .f32⟩
  | .hbm, ⟨82, _⟩ => ⟨S65536x36, .f32⟩
  | .hbm, ⟨83, _⟩ => ⟨S1x36, .f32⟩
  | .hbm, ⟨84, _⟩ => ⟨S65536x36, .f32⟩
  | .hbm, ⟨85, _⟩ => ⟨S65536x36, .f32⟩
  | .hbm, ⟨86, _⟩ => ⟨S32x2048x6x6, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_v24 : Ref sig .tc := ⟨.hbm, 57, rfl⟩
abbrev main_v25 : Ref sig .tc := ⟨.hbm, 58, rfl⟩
abbrev main_cst : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩

abbrev nD : Nat := 1
abbrev τ : Topo := Topo.v7x

variable {F : FTy → Type} [FloatOps F]

class Facts₀ : Prop where
  shapeCasts_S32x2048x512_S65536x512 : S32x2048x512.ShapeCasts S65536x512
  transposes_S2048x512_S512x2048_1_0 : S2048x512.Transposes [1, 0] S512x2048
  slices_S65536x2048_S65536x1024_0_0 : S65536x2048.Slices ![0, 0] S65536x1024
  slices_S65536x2048_S65536x1024_0_1024 : S65536x2048.Slices ![0, 1024] S65536x1024
  slices_S1024x4_S1024x1_0_3 : S1024x4.Slices ![0, 3] S1024x1
  shapeCasts_S1024x1_S1024 : S1024x1.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S64x1024_S1024x64_1_0 : S64x1024.Transposes [1, 0] S1024x64
  slices_S65536x64_S65536x32_0_0 : S65536x64.Slices ![0, 0] S65536x32
  slices_S65536x64_S65536x16_0_32 : S65536x64.Slices ![0, 32] S65536x16
  slices_S65536x64_S65536x16_0_48 : S65536x64.Slices ![0, 48] S65536x16
  transposes_S1024x32_S32x1024_1_0 : S1024x32.Transposes [1, 0] S32x1024
  reducesTo_S65536x16_S65536_d1 : S65536x16.ReducesTo [1] S65536
  h_S_ : 0 < S_.numel
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  transposes_S512x1024_S1024x512_1_0 : S512x1024.Transposes [1, 0] S1024x512
  transposes_S36x512_S512x36_1_0 : S36x512.Transposes [1, 0] S512x36
  bcast_S36_S1x36_1 : S36.BroadcastsInDim S1x36 (![1] : Fin 1 → Fin S1x36.rank)
  bcast_S1x36_S65536x36_0_1 : S1x36.BroadcastsInDim S65536x36 (![0, 1] : Fin 2 → Fin S65536x36.rank)
  shapeCasts_S65536x36_S32x2048x6x6 : S65536x36.ShapeCasts S32x2048x6x6
  dot_S65536x512_S512x2048_S65536x2048_1_0_0_1_n_n_wf : DotDims.WF S65536x512 S512x2048 S65536x2048 [1] [0] [0] [1] [] []
  dot_S65536x1024_S1024x64_S65536x64_1_0_0_1_n_n_wf : DotDims.WF S65536x1024 S1024x64 S65536x64 [1] [0] [0] [1] [] []
  dot_S65536x32_S32x1024_S65536x1024_1_0_0_1_n_n_wf : DotDims.WF S65536x32 S32x1024 S65536x1024 [1] [0] [0] [1] [] []
  dot_S65536x1024_S1024x512_S65536x512_1_0_0_1_n_n_wf : DotDims.WF S65536x1024 S1024x512 S65536x512 [1] [0] [0] [1] [] []
  dot_S65536x512_S512x36_S65536x36_1_0_0_1_n_n_wf : DotDims.WF S65536x512 S512x36 S65536x36 [1] [0] [0] [1] [] []

variable [Facts₀]

def dot_S65536x512_S512x2048_S65536x2048_1_0_0_1_n_n : DotDims S65536x512 S512x2048 S65536x2048 where
  lhsContracting := [1]
  rhsContracting := [0]
  lhsNonContracting := [0]
  rhsNonContracting := [1]
  lhsBatch := []
  rhsBatch := []
  wf := dot_S65536x512_S512x2048_S65536x2048_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf
def dot_S65536x32_S32x1024_S65536x1024_1_0_0_1_n_n : DotDims S65536x32 S32x1024 S65536x1024 where
  lhsContracting := [1]
  rhsContracting := [0]
  lhsNonContracting := [0]
  rhsNonContracting := [1]
  lhsBatch := []
  rhsBatch := []
  wf := dot_S65536x32_S32x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x36_S65536x36_1_0_0_1_n_n : DotDims S65536x512 S512x36 S65536x36 where
  lhsContracting := [1]
  rhsContracting := [0]
  lhsNonContracting := [0]
  rhsNonContracting := [1]
  lhsBatch := []
  rhsBatch := []
  wf := dot_S65536x512_S512x36_S65536x36_1_0_0_1_n_n_wf

class Facts : Prop extends Facts₀ where

variable [Facts]
-- ==== Proof.KernelDots.lean ====
/-
  The kernel's matrix products read at an entry.

  Each `tpu.matmul` of the body accumulates into a zero matrix, so at the extended reals its entry `(r, c)` is the
  plain sum `∑ k, lhs (r, k) * rhs (k, c)` over the contracted axis; the host's `dot_general` that composes the two
  head weights is the same sum.
-/
import proofs.«159131_j41618233098296_2_alg».proof.Proof.Gen.KernelIdeal
import Idealize.ShloMosaic.Lib.ValueIdx
import Idealize.ShloMosaic.Lib.Pipeline.Value
import Idealize.ShloMosaic.PureOps.Ideal.Laws

noncomputable section

namespace Cert.KernelDots

open Idealize.ShloMosaic Idealize.ShloMosaic.ValueIdx Cert.KernelIdeal Cert.KernelIdeal.Gen

/-! ### `1024×512` by `512×2048` -/

theorem matmul_in_proj_l0 (i : S1024x2048.Idx) (q : dot_S1024x512_S512x2048_S1024x2048_1_0_0_1_n_n.contr.Idx) : (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem matmul_in_proj_l1 (i : S1024x2048.Idx) (q : dot_S1024x512_S512x2048_S1024x2048_1_0_0_1_n_n.contr.Idx) : (dot_S1024x512_S512x2048_S1024x2048_1_0_0_1_n_n.lhsIdx i q 1).val = (q ⟨0, by decide⟩).val :=
  dot_S1024x512_S512x2048_S1024x2048_1_0_0_1_n_n.lhsIdx_val_of_single rfl i q
theorem matmul_in_proj_r0 (i : S1024x2048.Idx) (q : dot_S1024x512_S512x2048_S1024x2048_1_0_0_1_n_n.contr.Idx) : (dot_S1024x512_S512x2048_S1024x2048_1_0_0_1_n_n.rhsIdx i q 0).val = (q ⟨0, by decide⟩).val :=
  dot_S1024x512_S512x2048_S1024x2048_1_0_0_1_n_n.rhsIdx_val_of_single rfl i q
theorem matmul_in_proj_r1 (i : S1024x2048.Idx) (q : dot_S1024x512_S512x2048_S1024x2048_1_0_0_1_n_n.contr.Idx) : (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- Entry `(r, c)` of the product is `∑ k, lhs (r, k) * rhs (k, c)`. -/
theorem matmul_in_proj {φ₁ φ₂ : FTy} (lhs : FVec Ideal S1024x512 φ₁) (rhs : FVec Ideal S512x2048 φ₂) (r : Fin 1024) (c : Fin 2048) :
    matmul dot_S1024x512_S512x2048_S1024x2048_1_0_0_1_n_n none lhs rhs (constant S1024x2048 .f32 0x00000000#32) (ix2 r c) = ∑ k : Fin 512, lhs (ix2 r k) * rhs (ix2 k c) := by
  simp only [matmul]
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 r c) ((contrEquiv1 dot_S1024x512_S512x2048_S1024x2048_1_0_0_1_n_n 512 rfl rfl).symm k) = ix2 r k := funext fun a => Fin.ext (by
    match a with
    | ⟨0, _⟩ => exact matmul_in_proj_l0 _ _
    | ⟨1, _⟩ => exact (matmul_in_proj_l1 _ _).trans hk)
  have er : dot_S1024x512_S512x2048_S1024x2048_1_0_0_1_n_n.rhsIdx (ix2 r c) ((contrEquiv1 dot_S1024x512_S512x2048_S1024x2048_1_0_0_1_n_n 512 rfl rfl).symm k) = ix2 k c := funext fun a => Fin.ext (by
    match a with
    | ⟨0, _⟩ => exact (matmul_in_proj_r0 _ _).trans hk
    | ⟨1, _⟩ => exact matmul_in_proj_r1 _ _)
  rw [el, er]

/-! ### `1024×1024` by `1024×64` -/

theorem matmul_x_proj_l0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem matmul_x_proj_l1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem matmul_x_proj_r0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem matmul_x_proj_r1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Entry `(r, c)` of the product is `∑ k, lhs (r, k) * rhs (k, c)`. -/
theorem matmul_x_proj {φ₁ φ₂ : FTy} (lhs : FVec Ideal S1024x1024 φ₁) (rhs : FVec Ideal S1024x64 φ₂) (r : Fin 1024) (c : Fin 64) :
    matmul dot_S1024x1024_S1024x64_S1024x64_1_0_0_1_n_n none lhs rhs (constant S1024x64 .f32 0x00000000#32) (ix2 r c) = ∑ k : Fin 1024, lhs (ix2 r k) * rhs (ix2 k c) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r c) ((contrEquiv1 dot_S1024x1024_S1024x64_S1024x64_1_0_0_1_n_n 1024 rfl rfl).symm k) = ix2 r k := funext fun a => Fin.ext (by
    match a with
    | ⟨0, _⟩ => exact matmul_x_proj_l0 _ _
    | ⟨1, _⟩ => exact (matmul_x_proj_l1 _ _).trans hk)
  have er : dot_S1024x1024_S1024x64_S1024x64_1_0_0_1_n_n.rhsIdx (ix2 r c) ((contrEquiv1 dot_S1024x1024_S1024x64_S1024x64_1_0_0_1_n_n 1024 rfl rfl).symm k) = ix2 k c := funext fun a => Fin.ext (by
    match a with
    | ⟨0, _⟩ => exact (matmul_x_proj_r0 _ _).trans hk
    | ⟨1, _⟩ => exact matmul_x_proj_r1 _ _)
  rw [el, er]

/-! ### `1024×32` by `32×1024` -/

theorem matmul_dt_proj_l0 (i : S1024x1024.Idx) (q : dot_S1024x32_S32x1024_S1024x1024_1_0_0_1_n_n.contr.Idx) : (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
theorem matmul_dt_proj_l1 (i : S1024x1024.Idx) (q : dot_S1024x32_S32x1024_S1024x1024_1_0_0_1_n_n.contr.Idx) : (dot_S1024x32_S32x1024_S1024x1024_1_0_0_1_n_n.lhsIdx i q 1).val = (q ⟨0, by decide⟩).val :=
  dot_S1024x32_S32x1024_S1024x1024_1_0_0_1_n_n.lhsIdx_val_of_single rfl i q
theorem matmul_dt_proj_r0 (i : S1024x1024.Idx) (q : dot_S1024x32_S32x1024_S1024x1024_1_0_0_1_n_n.contr.Idx) : (dot_S1024x32_S32x1024_S1024x1024_1_0_0_1_n_n.rhsIdx i q 0).val = (q ⟨0, by decide⟩).val :=
  dot_S1024x32_S32x1024_S1024x1024_1_0_0_1_n_n.rhsIdx_val_of_single rfl i q
theorem matmul_dt_proj_r1 (i : S1024x1024.Idx) (q : dot_S1024x32_S32x1024_S1024x1024_1_0_0_1_n_n.contr.Idx) : (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl

/-- Entry `(r, c)` of the product is `∑ k, lhs (r, k) * rhs (k, c)`. -/
theorem matmul_dt_proj {φ₁ φ₂ : FTy} (lhs : FVec Ideal S1024x32 φ₁) (rhs : FVec Ideal S32x1024 φ₂) (r : Fin 1024) (c : Fin 1024) :
    matmul dot_S1024x32_S32x1024_S1024x1024_1_0_0_1_n_n none lhs rhs (constant S1024x1024 .f32 0x00000000#32) (ix2 r c) = ∑ k : Fin 32, lhs (ix2 r k) * rhs (ix2 k c) := by
  simp only [matmul]
  rw [Ideal.matmul_constant_zero_apply, ← Equiv.sum_comp (contrEquiv1 dot_S1024x32_S32x1024_S1024x1024_1_0_0_1_n_n 32 rfl rfl).symm]
  refine Finset.sum_congr rfl fun k _ => ?_
  have hk := contrEquiv1_symm_val dot_S1024x32_S32x1024_S1024x1024_1_0_0_1_n_n 32 rfl rfl k
  have el : dot_S1024x32_S32x1024_S1024x1024_1_0_0_1_n_n.lhsIdx (ix2 r c) ((contrEquiv1 dot_S1024x32_S32x1024_S1024x1024_1_0_0_1_n_n 32 rfl rfl).symm k) = ix2 r k := funext fun a => Fin.ext (by
    match a with
    | ⟨0, _⟩ => exact matmul_dt_proj_l0 _ _
    | ⟨1, _⟩ => exact (matmul_dt_proj_l1 _ _).trans hk)
  have er : dot_S1024x32_S32x1024_S1024x1024_1_0_0_1_n_n.rhsIdx (ix2 r c) ((contrEquiv1 dot_S1024x32_S32x1024_S1024x1024_1_0_0_1_n_n 32 rfl rfl).symm k) = ix2 k c := funext fun a => Fin.ext (by
    match a with
    | ⟨0, _⟩ => exact (matmul_dt_proj_r0 _ _).trans hk
    | ⟨1, _⟩ => exact matmul_dt_proj_r1 _ _)
  rw [el, er]

/-! ### `1024×1024` by `1024×36` -/

theorem matmul_head_l0 (i : S1024x36.Idx) (q : dot_S1024x1024_S1024x36_S1024x36_1_0_0_1_n_n.contr.Idx) : (dot_S1024x1024_S1024x36_S1024x36_1_0_0_1_n_n.lhsIdx i q 0).val = (i 0).val := by
  unfold DotDims.lhsIdx
  rw [dif_neg (show ¬(0 : Fin S1024x1024.rank) ∈ dot_S1024x1024_S1024x36_S1024x36_1_0_0_1_n_n.lhsBatch by decide), dif_pos (show (0 : Fin S1024x1024.rank) ∈ dot_S1024x1024_S1024x36_S1024x36_1_0_0_1_n_n.lhsNonContracting by decide)]
  rfl
theorem matmul_head_l1 (i : S1024x36.Idx) (q : dot_S1024x1024_S1024x36_S1024x36_1_0_0_1_n_n.contr.Idx) : (dot_S1024x1024_S1024x36_S1024x36_1_0_0_1_n_n.lhsIdx i q 1).val = (q ⟨0, by decide⟩).val :=
  dot_S1024x1024_S1024x36_S1024x36_1_0_0_1_n_n.lhsIdx_val_of_single rfl i q
theorem matmul_head_r0 (i : S1024x36.Idx) (q : dot_S1024x1024_S1024x36_S1024x36_1_0_0_1_n_n.contr.Idx) : (dot_S1024x1024_S1024x36_S1024x36_1_0_0_1_n_n.rhsIdx i q 0).val = (q ⟨0, by decide⟩).val :=
  dot_S1024x1024_S1024x36_S1024x36_1_0_0_1_n_n.rhsIdx_val_of_single rfl i q
theorem matmul_head_r1 (i : S1024x36.Idx) (q : dot_S1024x1024_S1024x36_S1024x36_1_0_0_1_n_n.contr.Idx) : (dot_S1024x1024_S1024x36_S1024x36_1_0_0_1_n_n.rhsIdx i q 1).val = (i 1).val := by
  unfold DotDims.rhsIdx
  rw [dif_neg (show ¬(1 : Fin S1024x36.rank) ∈ dot_S1024x1024_S1024x36_S1024x36_1_0_0_1_n_n.rhsBatch by decide), dif_pos (show (1 : Fin S1024x36.rank) ∈ dot_S1024x1024_S1024x36_S1024x36_1_0_0_1_n_n.rhsNonContracting by decide)]
  rfl

/-- Entry `(r, c)` of the product is `∑ k, lhs (r, k) * rhs (k, c)`. -/
theorem matmul_head {φ₁ φ₂ : FTy} (lhs : FVec Ideal S1024x1024 φ₁) (rhs : FVec Ideal S1024x36 φ₂) (r : Fin 1024) (c : Fin 36) :
    matmul dot_S1024x1024_S1024x36_S1024x36_1_0_0_1_n_n none lhs rhs (constant S1024x36 .f32 0x00000000#32) (ix2 r c) = ∑ k : Fin 1024, lhs (ix2 r k) * rhs (ix2 k c) := by
  simp only [matmul]
  rw [Ideal.matmul_constant_zero_apply, ← Equiv.sum_comp (contrEquiv1 dot_S1024x1024_S1024x36_S1024x36_1_0_0_1_n_n 1024 rfl rfl).symm]
  refine Finset.sum_congr rfl fun k _ => ?_
  have hk := contrEquiv1_symm_val dot_S1024x1024_S1024x36_S1024x36_1_0_0_1_n_n 1024 rfl rfl k
  have el : dot_S1024x1024_S1024x36_S1024x36_1_0_0_1_n_n.lhsIdx (ix2 r c) ((contrEquiv1 dot_S1024x1024_S1024x36_S1024x36_1_0_0_1_n_n 1024 rfl rfl).symm k) = ix2 r k := funext fun a => Fin.ext (by
    match a with
    | ⟨0, _⟩ => exact matmul_head_l0 _ _
    | ⟨1, _⟩ => exact (matmul_head_l1 _ _).trans hk)
  have er : dot_S1024x1024_S1024x36_S1024x36_1_0_0_1_n_n.rhsIdx (ix2 r c) ((contrEquiv1 dot_S1024x1024_S1024x36_S1024x36_1_0_0_1_n_n 1024 rfl rfl).symm k) = ix2 k c := funext fun a => Fin.ext (by
    match a with
    | ⟨0, _⟩ => exact (matmul_head_r0 _ _).trans hk
    | ⟨1, _⟩ => exact matmul_head_r1 _ _)
  rw [el, er]

/-! ### `36×512` by `512×1024` -/

theorem dot_head_weight_l0 (i : S36x1024.Idx) (q : dot_S36x512_S512x1024_S36x1024_1_0_0_1_n_n.contr.Idx) : (dot_S36x512_S512x1024_S36x1024_1_0_0_1_n_n.lhsIdx i q 0).val = (i 0).val := by
  unfold DotDims.lhsIdx
  rw [dif_neg (show ¬(0 : Fin S36x512.rank) ∈ dot_S36x512_S512x1024_S36x1024_1_0_0_1_n_n.lhsBatch by decide), dif_pos (show (0 : Fin S36x512.rank) ∈ dot_S36x512_S512x1024_S36x1024_1_0_0_1_n_n.lhsNonContracting by decide)]
  rfl
theorem dot_head_weight_l1 (i : S36x1024.Idx) (q : dot_S36x512_S512x1024_S36x1024_1_0_0_1_n_n.contr.Idx) : (dot_S36x512_S512x1024_S36x1024_1_0_0_1_n_n.lhsIdx i q 1).val = (q ⟨0, by decide⟩).val :=
  dot_S36x512_S512x1024_S36x1024_1_0_0_1_n_n.lhsIdx_val_of_single rfl i q
theorem dot_head_weight_r0 (i : S36x1024.Idx) (q : dot_S36x512_S512x1024_S36x1024_1_0_0_1_n_n.contr.Idx) : (dot_S36x512_S512x1024_S36x1024_1_0_0_1_n_n.rhsIdx i q 0).val = (q ⟨0, by decide⟩).val :=
  dot_S36x512_S512x1024_S36x1024_1_0_0_1_n_n.rhsIdx_val_of_single rfl i q
theorem dot_head_weight_r1 (i : S36x1024.Idx) (q : dot_S36x512_S512x1024_S36x1024_1_0_0_1_n_n.contr.Idx) : (dot_S36x512_S512x1024_S36x1024_1_0_0_1_n_n.rhsIdx i q 1).val = (i 1).val := by
  unfold DotDims.rhsIdx
  rw [dif_neg (show ¬(1 : Fin S512x1024.rank) ∈ dot_S36x512_S512x1024_S36x1024_1_0_0_1_n_n.rhsBatch by decide), dif_pos (show (1 : Fin S512x1024.rank) ∈ dot_S36x512_S512x1024_S36x1024_1_0_0_1_n_n.rhsNonContracting by decide)]
  rfl

/-- Entry `(r, c)` of the product is `∑ k, lhs (r, k) * rhs (k, c)`. -/
theorem dot_head_weight {φ₁ φ₂ : FTy} (lhs : FVec Ideal S36x512 φ₁) (rhs : FVec Ideal S512x1024 φ₂) (r : Fin 36) (c : Fin 1024) :
    Host.dotGeneral dot_S36x512_S512x1024_S36x1024_1_0_0_1_n_n none lhs rhs (ix2 r c) = ∑ k : Fin 512, lhs (ix2 r k) * rhs (ix2 k c) := by
  simp only [Host.dotGeneral]
  rw [Ideal.dotGeneral_apply, ← Equiv.sum_comp (contrEquiv1 dot_S36x512_S512x1024_S36x1024_1_0_0_1_n_n 512 rfl rfl).symm]
  refine Finset.sum_congr rfl fun k _ => ?_
  have hk := contrEquiv1_symm_val dot_S36x512_S512x1024_S36x1024_1_0_0_1_n_n 512 rfl rfl k
  have el : dot_S36x512_S512x1024_S36x1024_1_0_0_1_n_n.lhsIdx (ix2 r c) ((contrEquiv1 dot_S36x512_S512x1024_S36x1024_1_0_0_1_n_n 512 rfl rfl).symm k) = ix2 r k := funext fun a => Fin.ext (by
    match a with
    | ⟨0, _⟩ => exact dot_head_weight_l0 _ _
    | ⟨1, _⟩ => exact (dot_head_weight_l1 _ _).trans hk)
  have er : dot_S36x512_S512x1024_S36x1024_1_0_0_1_n_n.rhsIdx (ix2 r c) ((contrEquiv1 dot_S36x512_S512x1024_S36x1024_1_0_0_1_n_n 512 rfl rfl).symm k) = ix2 k c := funext fun a => Fin.ext (by
    match a with
    | ⟨0, _⟩ => exact (dot_head_weight_r0 _ _).trans hk
    | ⟨1, _⟩ => exact dot_head_weight_r1 _ _)
  rw [el, er]

end Cert.KernelDots

end
-- ==== Proof.RowIndex.lean ====
/-
  Block `t` of the token axis: its row `r` is row `t * 1024 + r` of the `65536` tokens.
-/
import Idealize.ShloMosaic.Lib.ValueIdx

noncomputable section

namespace Cert.Rows

open Idealize.ShloMosaic Idealize.ShloMosaic.ValueIdx

/-- Row `r` of block `t` is row `t * 1024 + r` of the token array. -/
def grow (t : Fin 64) (r : Fin 1024) : Fin 65536 := ⟨t.val * 1024 + r.val, by omega⟩

theorem grow_val (t : Fin 64) (r : Fin 1024) : (grow t r).val = t.val * 1024 + r.val := rfl

/-- Two rank-2 indices with the same two coordinates. -/
macro "idx2" : tactic => `(tactic| exact funext fun a => Fin.ext (by match a with
  | ⟨0, _⟩ => first | rfl | exact Nat.div_one _ | exact (Nat.div_one _).symm
  | ⟨1, _⟩ => first | rfl | exact Nat.div_one _ | exact (Nat.div_one _).symm))

/-- Two rank-1 indices with the same coordinate. -/
macro "idx1" : tactic => `(tactic| exact funext fun a => Fin.ext (by match a with
  | ⟨0, _⟩ => first | rfl | exact Nat.div_one _ | exact (Nat.div_one _).symm))

end Cert.Rows

end
-- ==== Proof.KernelBlocks.lean ====
/-
  What the region finds in each staged operand, and each window's block read at an entry.

  Before the region the program reshapes the tokens to `[65536, 512]`, transposes the three projection weights,
  composes the two head weights into one `[1024, 36]` matrix (a product, transposed), takes the last tap of the
  convolution weight as a row, and reshapes the four bias vectors to rows.  The token and output windows move with the
  grid point: block `t` is rows `t * 1024 … t * 1024 + 1023`; every other window is the whole operand at every point.
-/
import proofs.«159131_j41618233098296_2_alg».proof.Proof.Gen.KernelIdeal.Frame
import proofs.«159131_j41618233098296_2_alg».proof.Proof.Gen.ReferenceIdeal.Read
import proofs.«159131_j41618233098296_2_alg».proof.Proof.KernelDots
import proofs.«159131_j41618233098296_2_alg».proof.Proof.RowIndex
import Idealize.ShloMosaic.Lib.StableHlo.Run
import Idealize.ShloMosaic.Lib.ValueLayout

noncomputable section

namespace Cert.KernelBlocks

open Idealize.ShloMosaic Idealize.ShloMosaic.TcCoe Idealize.ShloMosaic.ValueIdx Idealize.SL.Sem Idealize.ShloMosaic.StableHlo
open Cert.KernelIdeal Cert.KernelIdeal.Gen Cert.ReferenceIdeal.Read Cert.KernelDots Cert.Rows

variable (m : (ℓ : Loc nD τ sig) → Buf (Elt Ideal) ℓ)

/-- `out_proj_w`, `fc_w` and `fc_b` as launched, as plain arrays of extended reals. -/
abbrev outProjW (c : Dev nD) : S512x1024.Idx → EReal := m ((c : Thread nD τ).loc main_arg9)
abbrev fcW (c : Dev nD) : S36x512.Idx → EReal := m ((c : Thread nD τ).loc main_arg10)
abbrev fcB (c : Dev nD) : S36.Idx → EReal := m ((c : Thread nD τ).loc main_arg11)

/-! ## The operands as the region finds them -/

theorem V_tokens (c : Dev nD) : (V m c main_v0 : S65536x512.Idx → EReal) = val_main_v0 (F := Ideal) (m ((c : Thread nD τ).loc main_arg0)) := by
  show StableHlo.after hostOps0 (fun b => m (c, b)) (Proc.devRef .tc main_v0) = _
  after_results
  rfl

theorem V_in_w (c : Dev nD) : (V m c main_v2 : S512x2048.Idx → EReal) = val_main_v1 (F := Ideal) (m ((c : Thread nD τ).loc main_arg1)) := by
  show StableHlo.after hostOps0 (fun b => m (c, b)) (Proc.devRef .tc main_v2) = _
  after_results
  rfl

theorem V_x_w (c : Dev nD) : (V m c main_v4 : S1024x64.Idx → EReal) = val_main_v14 (F := Ideal) (m ((c : Thread nD τ).loc main_arg4)) := by
  show StableHlo.after hostOps0 (fun b => m (c, b)) (Proc.devRef .tc main_v4) = _
  after_results
  rfl

theorem V_dt_w (c : Dev nD) : (V m c main_v6 : S32x1024.Idx → EReal) = val_main_v19 (F := Ideal) (m ((c : Thread nD τ).loc main_arg5)) := by
  show StableHlo.after hostOps0 (fun b => m (c, b)) (Proc.devRef .tc main_v6) = _
  after_results
  rfl

theorem V_head_w (c : Dev nD) : (V m c main_v9 : S1024x36.Idx → EReal)
    = transpose S1024x36 [1, 0] (Host.dotGeneral (F := Ideal) (φ₁ := .f32) (φ₂ := .f32) dot_S36x512_S512x1024_S36x1024_1_0_0_1_n_n none (fcW m c) (outProjW m c))
        transposes_S36x1024_S1024x36_1_0 := by
  show StableHlo.after hostOps0 (fun b => m (c, b)) (Proc.devRef .tc main_v9) = _
  after_results
  rfl

theorem V_conv_w (c : Dev nD) : (V m c main_v12 : S1x1024.Idx → EReal)
    = shapeCast S1x1024 (val_main_v6 (F := Ideal) (m ((c : Thread nD τ).loc main_arg2))) shapeCasts_S1024_S1x1024 := by
  show StableHlo.after hostOps0 (fun b => m (c, b)) (Proc.devRef .tc main_v12) = _
  after_results
  rfl

theorem V_conv_b (c : Dev nD) : (V m c main_v13 : S1x1024.Idx → EReal) = shapeCast S1x1024 (m ((c : Thread nD τ).loc main_arg3)) shapeCasts_S1024_S1x1024 := by
  show StableHlo.after hostOps0 (fun b => m (c, b)) (Proc.devRef .tc main_v13) = _
  after_results
  rfl

theorem V_dt_b (c : Dev nD) : (V m c main_v14 : S1x1024.Idx → EReal) = shapeCast S1x1024 (m ((c : Thread nD τ).loc main_arg6)) shapeCasts_S1024_S1x1024 := by
  show StableHlo.after hostOps0 (fun b => m (c, b)) (Proc.devRef .tc main_v14) = _
  after_results
  rfl

theorem V_D (c : Dev nD) : (V m c main_v15 : S1x1024.Idx → EReal) = shapeCast S1x1024 (m ((c : Thread nD τ).loc main_arg8)) shapeCasts_S1024_S1x1024 := by
  show StableHlo.after hostOps0 (fun b => m (c, b)) (Proc.devRef .tc main_v15) = _
  after_results
  rfl

theorem V_fc_b (c : Dev nD) : (V m c main_v16 : S1x36.Idx → EReal) = shapeCast S1x36 (m ((c : Thread nD τ).loc main_arg11)) shapeCasts_S36_S1x36 := by
  show StableHlo.after hostOps0 (fun b => m (c, b)) (Proc.devRef .tc main_v16) = _
  after_results
  rfl

/-! ## The index maps, decided over the grid -/

theorem index_tokens : ∀ t : Fin cfg0.N, win0_0.index t (0 : Fin 2) = t.val ∧ win0_0.index t (1 : Fin 2) = 0 :=
  (by decide +kernel : ∀ t : Fin grid0.N, _)
theorem index_in_w : ∀ t : Fin cfg0.N, win0_1.index t (0 : Fin 2) = 0 ∧ win0_1.index t (1 : Fin 2) = 0 :=
  (by decide +kernel : ∀ t : Fin grid0.N, _)
theorem index_conv_w : ∀ t : Fin cfg0.N, win0_2.index t (0 : Fin 2) = 0 ∧ win0_2.index t (1 : Fin 2) = 0 :=
  (by decide +kernel : ∀ t : Fin grid0.N, _)
theorem index_conv_b : ∀ t : Fin cfg0.N, win0_3.index t (0 : Fin 2) = 0 ∧ win0_3.index t (1 : Fin 2) = 0 :=
  (by decide +kernel : ∀ t : Fin grid0.N, _)
theorem index_x_w : ∀ t : Fin cfg0.N, win0_4.index t (0 : Fin 2) = 0 ∧ win0_4.index t (1 : Fin 2) = 0 :=
  (by decide +kernel : ∀ t : Fin grid0.N, _)
theorem index_dt_w : ∀ t : Fin cfg0.N, win0_5.index t (0 : Fin 2) = 0 ∧ win0_5.index t (1 : Fin 2) = 0 :=
  (by decide +kernel : ∀ t : Fin grid0.N, _)
theorem index_dt_b : ∀ t : Fin cfg0.N, win0_6.index t (0 : Fin 2) = 0 ∧ win0_6.index t (1 : Fin 2) = 0 :=
  (by decide +kernel : ∀ t : Fin grid0.N, _)
theorem index_D : ∀ t : Fin cfg0.N, win0_7.index t (0 : Fin 2) = 0 ∧ win0_7.index t (1 : Fin 2) = 0 :=
  (by decide +kernel : ∀ t : Fin grid0.N, _)
theorem index_head_w : ∀ t : Fin cfg0.N, win0_8.index t (0 : Fin 2) = 0 ∧ win0_8.index t (1 : Fin 2) = 0 :=
  (by decide +kernel : ∀ t : Fin grid0.N, _)
theorem index_fc_b : ∀ t : Fin cfg0.N, win0_9.index t (0 : Fin 2) = 0 ∧ win0_9.index t (1 : Fin 2) = 0 :=
  (by decide +kernel : ∀ t : Fin grid0.N, _)
theorem index_out : ∀ t : Fin cfg0.N, win0_10.index t (0 : Fin 2) = t.val ∧ win0_10.index t (1 : Fin 2) = 0 :=
  (by decide +kernel : ∀ t : Fin grid0.N, _)

/-- A grid point as a block number. -/
def pt (t : Fin cfg0.N) : Fin 64 := ⟨t.val, by have h := t.isLt; have hN : cfg0.N = 64 := N_0; omega⟩

/-! ## Each window's block at a point, read at an entry -/

/-- The token block at point `t` is rows `t * 1024 …` of the reshaped tokens. -/
theorem blk_tokens (c : Dev nD) (t : Fin cfg0.N) (r : Fin 1024) (k : Fin 512) :
    (iblk m c 0 t : S1024x512.Idx → EReal) (ix2 r k) = val_main_v0 (F := Ideal) (m ((c : Thread nD τ).loc main_arg0)) (ix2 (grow (pt t) r) k) := by
  obtain ⟨e0, e1⟩ := index_tokens t
  show (V m c main_v0 : S65536x512.Idx → EReal) (((cfg0.win 0).blk t).view.emb (ix2 r k)) = _
  rw [V_tokens]
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 512 + 1 * k.val = k.val; omega

theorem blk_in_w (c : Dev nD) (t : Fin cfg0.N) (k : Fin 512) (j : Fin 2048) :
    (iblk m c 1 t : S512x2048.Idx → EReal) (ix2 k j) = val_main_v1 (F := Ideal) (m ((c : Thread nD τ).loc main_arg1)) (ix2 k j) := by
  obtain ⟨e0, e1⟩ := index_in_w t
  show (V m c main_v2 : S512x2048.Idx → EReal) (((cfg0.win 1).blk t).view.emb (ix2 k j)) = _
  rw [V_in_w]
  refine congrArg _ (funext fun a => Fin.ext ?_)
  match a with
  | ⟨0, _⟩ => show win0_1.index t (0 : Fin 2) * 512 + 1 * k.val = k.val; omega
  | ⟨1, _⟩ => show win0_1.index t (1 : Fin 2) * 2048 + 1 * j.val = j.val; omega

theorem blk_x_w (c : Dev nD) (t : Fin cfg0.N) (k : Fin 1024) (e : Fin 64) :
    (iblk m c 4 t : S1024x64.Idx → EReal) (ix2 k e) = val_main_v14 (F := Ideal) (m ((c : Thread nD τ).loc main_arg4)) (ix2 k e) := by
  obtain ⟨e0, e1⟩ := index_x_w t
  show (V m c main_v4 : S1024x64.Idx → EReal) (((cfg0.win 4).blk t).view.emb (ix2 k e)) = _
  rw [V_x_w]
  refine congrArg _ (funext fun a => Fin.ext ?_)
  match a with
  | ⟨0, _⟩ => show win0_4.index t (0 : Fin 2) * 1024 + 1 * k.val = k.val; omega
  | ⟨1, _⟩ => show win0_4.index t (1 : Fin 2) * 64 + 1 * e.val = e.val; omega

theorem blk_dt_w (c : Dev nD) (t : Fin cfg0.N) (k : Fin 32) (j : Fin 1024) :
    (iblk m c 5 t : S32x1024.Idx → EReal) (ix2 k j) = val_main_v19 (F := Ideal) (m ((c : Thread nD τ).loc main_arg5)) (ix2 k j) := by
  obtain ⟨e0, e1⟩ := index_dt_w t
  show (V m c main_v6 : S32x1024.Idx → EReal) (((cfg0.win 5).blk t).view.emb (ix2 k j)) = _
  rw [V_dt_w]
  refine congrArg _ (funext fun a => Fin.ext ?_)
  match a with
  | ⟨0, _⟩ => show win0_5.index t (0 : Fin 2) * 32 + 1 * k.val = k.val; omega
  | ⟨1, _⟩ => show win0_5.index t (1 : Fin 2) * 1024 + 1 * j.val = j.val; omega

/-- The composed head weight: entry `(k, o)` is `∑ j, fc_w (o, j) * out_proj_w (j, k)`. -/
theorem blk_head_w (c : Dev nD) (t : Fin cfg0.N) (k : Fin 1024) (o : Fin 36) :
    (iblk m c 8 t : S1024x36.Idx → EReal) (ix2 k o)
      = ∑ j : Fin 512, fcW m c (ix2 o j) * outProjW m c (ix2 j k) := by
  obtain ⟨e0, e1⟩ := index_head_w t
  show (V m c main_v9 : S1024x36.Idx → EReal) (((cfg0.win 8).blk t).view.emb (ix2 k o)) = _
  rw [V_head_w]
  have hi : ((cfg0.win 8).blk t).view.emb (ix2 k o) = ix2 k o := funext fun a => Fin.ext (by
    match a with
    | ⟨0, _⟩ => show win0_8.index t (0 : Fin 2) * 1024 + 1 * k.val = k.val; omega
    | ⟨1, _⟩ => show win0_8.index t (1 : Fin 2) * 36 + 1 * o.val = o.val; omega)
  rw [hi, transpose_ix2_apply]
  exact dot_head_weight (φ₁ := .f32) (φ₂ := .f32) (fcW m c) (outProjW m c) o k

/-- The last convolution tap as a row: entry `(0, j)` is `conv_w (j, 3)`. -/
theorem blk_conv_w (c : Dev nD) (t : Fin cfg0.N) (j : Fin 1024) :
    (iblk m c 2 t : S1x1024.Idx → EReal) (ix2 (0 : Fin 1) j) = (m ((c : Thread nD τ).loc main_arg2)) (ix2 j (3 : Fin 4)) := by
  obtain ⟨e0, e1⟩ := index_conv_w t
  show (V m c main_v12 : S1x1024.Idx → EReal) (((cfg0.win 2).blk t).view.emb (ix2 (0 : Fin 1) j)) = _
  rw [V_conv_w]
  have hi : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 1024 + 1 * j.val = j.val; omega)
  rw [hi, shapeCast_a_1a_apply, val_main_v6_apply, val_main_v5_apply]
  exact congrArg _ (by idx2)

theorem blk_conv_b (c : Dev nD) (t : Fin cfg0.N) (j : Fin 1024) :
    (iblk m c 3 t : S1x1024.Idx → EReal) (ix2 (0 : Fin 1) j) = (m ((c : Thread nD τ).loc main_arg3)) (ix1 j) := by
  obtain ⟨e0, e1⟩ := index_conv_b t
  show (V m c main_v13 : S1x1024.Idx → EReal) (((cfg0.win 3).blk t).view.emb (ix2 (0 : Fin 1) j)) = _
  rw [V_conv_b]
  have hi : ((cfg0.win 3).blk t).view.emb (ix2 (0 : Fin 1) j) = ix2 (0 : Fin 1) j := funext fun a => Fin.ext (by
    match a with
    | ⟨0, _⟩ => show win0_3.index t (0 : Fin 2) * 1 + 1 * 0 = 0; omega
    | ⟨1, _⟩ => show win0_3.index t (1 : Fin 2) * 1024 + 1 * j.val = j.val; omega)
  rw [hi, shapeCast_a_1a_apply]

theorem blk_dt_b (c : Dev nD) (t : Fin cfg0.N) (j : Fin 1024) :
    (iblk m c 6 t : S1x1024.Idx → EReal) (ix2 (0 : Fin 1) j) = (m ((c : Thread nD τ).loc main_arg6)) (ix1 j) := by
  obtain ⟨e0, e1⟩ := index_dt_b t
  show (V m c main_v14 : S1x1024.Idx → EReal) (((cfg0.win 6).blk t).view.emb (ix2 (0 : Fin 1) j)) = _
  rw [V_dt_b]
  have hi : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 1024 + 1 * j.val = j.val; omega)
  rw [hi, shapeCast_a_1a_apply]

theorem blk_D (c : Dev nD) (t : Fin cfg0.N) (j : Fin 1024) :
    (iblk m c 7 t : S1x1024.Idx → EReal) (ix2 (0 : Fin 1) j) = (m ((c : Thread nD τ).loc main_arg8)) (ix1 j) := by
  obtain ⟨e0, e1⟩ := index_D t
  show (V m c main_v15 : S1x1024.Idx → EReal) (((cfg0.win 7).blk t).view.emb (ix2 (0 : Fin 1) j)) = _
  rw [V_D]
  have hi : ((cfg0.win 7).blk t).view.emb (ix2 (0 : Fin 1) j) = ix2 (0 : Fin 1) j := funext fun a => Fin.ext (by
    match a with
    | ⟨0, _⟩ => show win0_7.index t (0 : Fin 2) * 1 + 1 * 0 = 0; omega
    | ⟨1, _⟩ => show win0_7.index t (1 : Fin 2) * 1024 + 1 * j.val = j.val; omega)
  rw [hi, shapeCast_a_1a_apply]

theorem blk_fc_b (c : Dev nD) (t : Fin cfg0.N) (o : Fin 36) :
    (iblk m c 9 t : S1x36.Idx → EReal) (ix2 (0 : Fin 1) o) = fcB m c (ix1 o) := by
  obtain ⟨e0, e1⟩ := index_fc_b t
  show (V m c main_v16 : S1x36.Idx → EReal) (((cfg0.win 9).blk t).view.emb (ix2 (0 : Fin 1) o)) = _
  rw [V_fc_b]
  have hi : ((cfg0.win 9).blk t).view.emb (ix2 (0 : Fin 1) o) = ix2 (0 : Fin 1) o := funext fun a => Fin.ext (by
    match a with
    | ⟨0, _⟩ => show win0_9.index t (0 : Fin 2) * 1 + 1 * 0 = 0; omega
    | ⟨1, _⟩ => show win0_9.index t (1 : Fin 2) * 36 + 1 * o.val = o.val; omega)
  rw [hi, shapeCast_a_1a_apply]

/-- The output block at point `t` sits at rows `t * 1024 …` of the `[65536, 36]` result. -/
theorem emb_out (t : Fin cfg0.N) (r : Fin 1024) (o : Fin 36) :
    ((cfg0.win 10).blk t).view.emb (ix2 r o) = (ix2 (grow (pt t) r) o : S65536x36.Idx) := by
  obtain ⟨e0, e1⟩ := index_out t
  refine funext fun a => Fin.ext ?_
  match a with
  | ⟨0, _⟩ => show win0_10.index t (0 : Fin 2) * 1024 + 1 * r.val = t.val * 1024 + r.val; omega
  | ⟨1, _⟩ => show win0_10.index t (1 : Fin 2) * 36 + 1 * o.val = o.val; omega

end Cert.KernelBlocks

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.RealVal.lean ====
/-
  An extended real that is a real number: neither infinity. The distributive law, and with it the
  regrouping of a product of three matrices, holds on the extended reals only among such values.
-/
import Idealize.ShloMosaic.PureOps.Ideal

namespace Cert.RealVal

/-- `x` is (the image of) a real number. -/
def IsReal (x : EReal) : Prop := ∃ r : ℝ, x = (r : EReal)

/-- Every entry of an indexed family is a real number. -/
def AllReal {ι : Type} (v : ι → EReal) : Prop := ∀ i, IsReal (v i)

end Cert.RealVal
-- ==== Proof.Scalar.lean ====
/-
  Closure of the real numbers inside the extended reals under the operations a program applies, and the
  regrouping law for a product of three matrices, which holds on the extended reals only when every factor
  is a real number: a negative real does not distribute over (+∞) + (−∞).
-/
import Idealize.ShloMosaic.PureOps.Ideal
import Idealize.ShloMosaic.PureOps.Ideal.Laws
import Mathlib
import proofs.«159131_j41618233098296_2_alg».proof.Proof.RealVal

open Idealize.ShloMosaic
open Cert.RealVal
open scoped BigOperators

namespace Cert.Scalar

variable {x y u v : EReal}

theorem isReal_zero : IsReal 0 := ⟨0, rfl⟩

theorem isReal_one : IsReal 1 := ⟨1, rfl⟩

theorem isReal_coe (r : ℝ) : IsReal (r : EReal) := ⟨r, rfl⟩

theorem IsReal.add : IsReal x → IsReal y → IsReal (x + y) := by
  rintro ⟨a, rfl⟩ ⟨b, rfl⟩
  exact ⟨a + b, (EReal.coe_add a b).symm⟩

theorem IsReal.sub : IsReal x → IsReal y → IsReal (x - y) := by
  rintro ⟨a, rfl⟩ ⟨b, rfl⟩
  exact ⟨a - b, (EReal.coe_sub a b).symm⟩

theorem IsReal.mul : IsReal x → IsReal y → IsReal (x * y) := by
  rintro ⟨a, rfl⟩ ⟨b, rfl⟩
  exact ⟨a * b, (EReal.coe_mul a b).symm⟩

theorem IsReal.neg : IsReal x → IsReal (-x) := by
  rintro ⟨a, rfl⟩
  exact ⟨-a, (EReal.coe_neg a).symm⟩

theorem IsReal.max : IsReal x → IsReal y → IsReal (max x y) := by
  rintro ⟨a, rfl⟩ ⟨b, rfl⟩
  exact ⟨Max.max a b, (EReal.coe_strictMono.monotone.map_max).symm⟩

/-- The absolute value `max x (-x)` of a real number is a real number. -/
theorem IsReal.abs : IsReal x → IsReal (Max.max x (-x)) :=
  fun h => IsReal.max h (IsReal.neg h)

theorem IsReal.sum {ι : Type} (s : Finset ι) (f : ι → EReal) (h : ∀ i ∈ s, IsReal (f i)) :
    IsReal (∑ i ∈ s, f i) :=
  Finset.sum_induction f IsReal (fun _ _ ha hb => IsReal.add ha hb) isReal_zero h

theorem IsReal.exp : IsReal x → IsReal (Ideal.exp x) := by
  rintro ⟨a, rfl⟩
  exact ⟨Real.exp a, rfl⟩

/-- The logistic function of a real `a` is the real `(1 + e^(-a))⁻¹`: the denominator is a real `≥ 1`. -/
theorem IsReal.logistic : IsReal x → IsReal (Ideal.logistic x) := by
  rintro ⟨a, rfl⟩
  exact ⟨(1 + Real.exp (-a))⁻¹, Ideal.logistic_coe a⟩

theorem IsReal.div_one_add_exp : IsReal x → IsReal (Ideal.div 1 (1 + Ideal.exp (-x))) :=
  fun h => IsReal.logistic h

/-- `log (1 + e^a)` is a real number, since `1 + e^a > 0`. -/
theorem IsReal.log1p_exp : IsReal x → IsReal (Ideal.log1p (Ideal.exp x)) := by
  rintro ⟨a, rfl⟩
  have hpos : ¬ (1 + Real.exp a ≤ 0) := not_le.mpr (by positivity)
  refine ⟨Real.log (1 + Real.exp a), ?_⟩
  have h : (1 : EReal) + Ideal.exp (a : EReal) = ((1 + Real.exp a : ℝ) : EReal) := by
    rw [Ideal.exp_coe, EReal.coe_add, EReal.coe_one]
  rw [Ideal.log1p, h, Ideal.log_coe, if_neg hpos]

/-- The single-precision pattern with exponent field 127 and zero significand field is `2^23 · 2^(-23) = 1`. -/
theorem ofBits_one_f32 : Ideal.ofBits .f32 0x3F800000#32 = 1 := by
  simp [Ideal.ofBits, Ideal.ieee]
  rw [← EReal.coe_mul, ← EReal.coe_one]
  norm_num

theorem IsReal.select (c : BitVec 1) : IsReal x → IsReal y → IsReal (Scalar.select c x y) := by
  intro hx hy
  unfold Scalar.select
  split
  · exact hx
  · exact hy

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Regrouping a product of three matrices of real numbers: `y · (Fᵀ O) = (O y) · F`. -/
theorem head_assoc {J K : ℕ} (y : Fin K → EReal) (O : Fin J → Fin K → EReal) (Fc : Fin J → EReal)
    (hy : ∀ k, IsReal (y k)) (hO : ∀ j k, IsReal (O j k)) (hF : ∀ j, IsReal (Fc j)) :
    ∑ k, y k * (∑ j, Fc j * O j k) = ∑ j, (∑ k, y k * O j k) * Fc j := by
  choose y' hy' using hy
  choose O' hO' using hO
  choose F' hF' using hF
  have hL : ∑ k, y k * (∑ j, Fc j * O j k) = ((∑ k, y' k * (∑ j, F' j * O' j k) : ℝ) : EReal) := by
    rw [coe_sum]
    refine Finset.sum_congr rfl fun k _ => ?_
    rw [EReal.coe_mul, coe_sum, hy' k]
    congr 1
    refine Finset.sum_congr rfl fun j _ => ?_
    rw [EReal.coe_mul, hF' j, hO' j k]
  have hR : ∑ j, (∑ k, y k * O j k) * Fc j = ((∑ j, (∑ k, y' k * O' j k) * F' j : ℝ) : EReal) := by
    rw [coe_sum]
    refine Finset.sum_congr rfl fun j _ => ?_
    rw [EReal.coe_mul, coe_sum, hF' j]
    congr 1
    refine Finset.sum_congr rfl fun k _ => ?_
    rw [EReal.coe_mul, hy' k, hO' j k]
  rw [hL, hR]
  congr 1
  simp only [Finset.mul_sum, Finset.sum_mul]
  rw [Finset.sum_comm]
  refine Finset.sum_congr rfl fun j _ => Finset.sum_congr rfl fun k _ => ?_
  ring

end Cert.Scalar
-- ==== Proof.Rows.lean ====
/-
  Every operation of the kernel body acts on each token row by itself, so block `t` of a body value is rows
  `t * 1024 … t * 1024 + 1023` of the same value computed on the whole token array.

  Stage by stage: a body value at the block-local entry `(r, c)` equals the reference's value of the same stage at the
  global entry `(t * 1024 + r, c)`, given that the loaded blocks are the matching rows of the token array and the
  (whole) weight operands.  A matrix product contracts along a row; a column slice, a row-vector broadcast, a pointwise
  operation and a sum along the row keep the row.  The two programs spell `x * σ(x)` and `log (1 + e^u)` differently;
  on the extended reals the spellings agree.
-/
import proofs.«159131_j41618233098296_2_alg».proof.Proof.Gen.KernelIdeal.Skeleton
import proofs.«159131_j41618233098296_2_alg».proof.Proof.Gen.ReferenceIdeal.Read
import proofs.«159131_j41618233098296_2_alg».proof.Proof.KernelDots
import proofs.«159131_j41618233098296_2_alg».proof.Proof.LibColumn
import proofs.«159131_j41618233098296_2_alg».proof.Proof.RowIndex
import proofs.«159131_j41618233098296_2_alg».proof.Proof.Scalar
import Idealize.ShloMosaic.Lib.ValueLayout

noncomputable section

namespace Cert.Rows

open Idealize.ShloMosaic Idealize.ShloMosaic.ValueIdx Cert.KernelIdeal Cert.KernelIdeal.Gen Cert.ReferenceIdeal.Read Cert.KernelDots

theorem logistic_apply {s : Shape} {φ : FTy} (a : FVec Ideal s φ) (i : s.Idx) : logistic a i = Ideal.logistic (a i) := rfl
theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl
theorem absf_apply {s : Shape} {φ : FTy} (a : FVec Ideal s φ) (i : s.Idx) : absf a i = max (a i) (-(a i)) := rfl

section
variable (x0 : (⟨S32x2048x512, .f32⟩ : BufTy).Contents (Elt Ideal)) (x1 : (⟨S2048x512, .f32⟩ : BufTy).Contents (Elt Ideal))
  (x2 : (⟨S1024x4, .f32⟩ : BufTy).Contents (Elt Ideal)) (x3 : (⟨S1024, .f32⟩ : BufTy).Contents (Elt Ideal))
  (x4 : (⟨S64x1024, .f32⟩ : BufTy).Contents (Elt Ideal)) (x5 : (⟨S1024x32, .f32⟩ : BufTy).Contents (Elt Ideal))
  (x6 x8 : (⟨S1024, .f32⟩ : BufTy).Contents (Elt Ideal))
  (t : Fin 64)
  (v0 : Vec Ideal S1024x512 .f32) (v3 : Vec Ideal S512x2048 .bf16) (v8 v12 : Vec Ideal S1x1024 .f32)
  (v19 : Vec Ideal S1024x64 .bf16) (v26 : Vec Ideal S32x1024 .bf16) (v29 v53 : Vec Ideal S1x1024 .f32)

/-! ## The in-projection `xz = f · Winᵀ` and its two halves -/

theorem xz_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (r : Fin 1024) (c : Fin 2048) :
    k0_pay2 v0 v3 (ix2 r c) = val_main_v2 (F := Ideal) x0 x1 (ix2 (grow t r) c) := by
  rw [val_main_v2_apply]
  unfold k0_pay2
  dsimp only
  refine (matmul_in_proj _ _ r c).trans (Finset.sum_congr rfl fun k _ => ?_)
  rw [truncf_apply, shapeCast_self, shapeCast_self, h0, h3]
  exact congrArg₂ (· * ·) (congrArg _ (by idx2)) (congrArg _ (by idx2))

/-- The gate half `z`: columns `1024 … 2047`. -/
theorem z_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (r c : Fin 1024) :
    k0_pay3 v0 v3 (ix2 r c) = val_main_v4 (F := Ideal) x0 x1 (ix2 (grow t r) c) := by
  rw [val_main_v4_apply]
  unfold k0_pay3
  try dsimp only
  refine (slice2_axis1_apply 1024 (k0_pay2 v0 v3) _ r c ⟨1024 + c.val, by omega⟩ rfl).trans ?_
  rw [xz_row x0 x1 t v0 v3 h0 h3]
  exact congrArg _ (by idx2)

/-! ## `x = silu (xz[:1024] * conv_w[:, 3] + conv_b)` -/

/-- The argument of the first silu: columns `0 … 1023` of `xz`, scaled and shifted column by column. -/
theorem xlin_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (r c : Fin 1024) :
    (addf (mulf (extractStridedSlice S1024x1024 ![0, 0] (k0_pay2 v0 v3) slices_S1024x2048_o0_0_S1024x1024)
        (broadcastTo S1024x1024 (shapeCast S1x1024 v8 shapeCasts_S1x1024_S1x1024) broadcasts_S1x1024_S1024x1024))
      (broadcastTo S1024x1024 (shapeCast S1x1024 v12 shapeCasts_S1x1024_S1x1024) broadcasts_S1x1024_S1024x1024) : FVec Ideal S1024x1024 .f32) (ix2 r c)
    = val_main_v12 (F := Ideal) x0 x1 x2 x3 (ix2 (grow t r) c) := by
  rw [val_main_v12_apply, val_main_v9_apply, val_main_v3_apply, val_main_v8_apply, val_main_v7_apply, val_main_v6_apply,
    val_main_v5_apply, val_main_v11_apply, val_main_v10_apply]
  rw [addf_apply, mulf_apply, slice2_axis1_apply 0 (k0_pay2 v0 v3) _ r c ⟨c.val, by omega⟩ (Nat.zero_add _).symm,
    broadcastTo_1b_ab_apply, broadcastTo_1b_ab_apply, shapeCast_self, shapeCast_self, h8, h12, xz_row x0 x1 t v0 v3 h0 h3]
  exact congrArg₂ (· + ·) (congrArg₂ (· * ·) (congrArg _ (by idx2)) (congrArg _ (by idx2))) (congrArg _ (by idx1))

/-- `x * σ(x)` with `σ` the logistic function is `x * (1 / (1 + e^(-x)))` with the two ones spelt as the float `1.0`. -/
theorem silu_spellings (a : EReal) :
    a * Ideal.logistic a
      = FloatOps.mulf (F := Ideal) (φ := .f32) a (FloatOps.hostDivf (FloatOps.ofBits .f32 0x3F800000#32)
          (FloatOps.addf (FloatOps.ofBits .f32 0x3F800000#32) (FloatOps.hostUnary .exp (FloatOps.hostNegf a)))) := by
  show a * Ideal.div 1 (1 + Ideal.exp (-a))
    = a * Ideal.div (Ideal.ofBits .f32 0x3F800000#32) (Ideal.ofBits .f32 0x3F800000#32 + Ideal.exp (-a))
  rw [Cert.Scalar.ofBits_one_f32]

theorem x_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (r c : Fin 1024) :
    k0_pay4 v0 v3 v8 v12 (ix2 r c) = val_main_v13 (F := Ideal) x0 x1 x2 x3 (ix2 (grow t r) c) := by
  rw [val_main_v13_apply, val_main_call0_v5_apply, val_main_call0_v4_apply, val_main_call0_cst_0_apply, val_main_call0_v3_apply,
    val_main_call0_v2_apply, val_main_call0_cst_apply, val_main_call0_v1_apply, val_main_call0_v0_apply]
  unfold k0_pay4
  try dsimp only
  rw [mulf_apply, logistic_apply, xlin_row x0 x1 x2 x3 t v0 v3 v8 v12 h0 h3 h8 h12 r c]
  exact silu_spellings _

/-! ## `x_dbl = x · Wxᵀ` and its three column groups -/

theorem xdbl_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (r : Fin 1024) (e : Fin 64) :
    k0_pay5 v0 v3 v8 v12 v19 (ix2 r e) = val_main_v15 (F := Ideal) x0 x1 x2 x3 x4 (ix2 (grow t r) e) := by
  rw [val_main_v15_apply]
  unfold k0_pay5
  try dsimp only
  refine (matmul_x_proj _ _ r e).trans (Finset.sum_congr rfl fun k _ => ?_)
  rw [truncf_apply, shapeCast_self, x_row x0 x1 x2 x3 t v0 v3 v8 v12 h0 h3 h8 h12 r k, h19]
  exact congrArg₂ (· * ·) (congrArg _ (by idx2)) (congrArg _ (by idx2))

/-- `B`: columns `32 … 47`. -/
theorem bm_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (r : Fin 1024) (s : Fin 16) :
    k0_pay6 v0 v3 v8 v12 v19 (ix2 r s) = val_main_v17 (F := Ideal) x0 x1 x2 x3 x4 (ix2 (grow t r) s) := by
  rw [val_main_v17_apply]
  unfold k0_pay6
  try dsimp only
  refine (slice2_axis1_apply 32 (k0_pay5 v0 v3 v8 v12 v19) _ r s ⟨32 + s.val, by omega⟩ rfl).trans ?_
  rw [xdbl_row x0 x1 x2 x3 x4 t v0 v3 v8 v12 v19 h0 h3 h8 h12 h19]
  exact congrArg _ (by idx2)

/-- `C`: columns `48 … 63`. -/
theorem cm_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (r : Fin 1024) (s : Fin 16) :
    k0_pay7 v0 v3 v8 v12 v19 (ix2 r s) = val_main_v18 (F := Ideal) x0 x1 x2 x3 x4 (ix2 (grow t r) s) := by
  rw [val_main_v18_apply]
  unfold k0_pay7
  try dsimp only
  refine (slice2_axis1_apply 48 (k0_pay5 v0 v3 v8 v12 v19) _ r s ⟨48 + s.val, by omega⟩ rfl).trans ?_
  rw [xdbl_row x0 x1 x2 x3 x4 t v0 v3 v8 v12 v19 h0 h3 h8 h12 h19]
  exact congrArg _ (by idx2)

/-! ## `u = x_dbl[:32] · Wdtᵀ + b_dt`, the argument of softplus, and softplus's pieces -/

theorem u_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (h26 : ∀ (k : Fin 32) (c : Fin 1024), v26 (ix2 k c) = val_main_v19 (F := Ideal) x5 (ix2 k c))
    (h29 : ∀ c : Fin 1024, v29 (ix2 (0 : Fin 1) c) = x6 (ix1 c))
    (r c : Fin 1024) :
    k0_pay8 v0 v3 v8 v12 v19 v26 v29 (ix2 r c) = val_main_v23 (F := Ideal) x0 x1 x2 x3 x4 x5 x6 (ix2 (grow t r) c) := by
  rw [val_main_v23_apply, Ideal.addf_def, val_main_v20_apply, val_main_v22_apply, val_main_v21_apply]
  unfold k0_pay8
  try dsimp only
  rw [addf_apply, broadcastTo_1b_ab_apply, shapeCast_self, shapeCast_self, h29]
  refine congrArg₂ (· + ·) ?_ (congrArg _ (by idx1))
  refine (matmul_dt_proj (φ₁ := .bf16) (φ₂ := .bf16) _ _ r c).trans (Finset.sum_congr rfl fun k _ => ?_)
  rw [truncf_apply, slice2_axis1_apply 0 (k0_pay5 v0 v3 v8 v12 v19) _ r k ⟨k.val, by omega⟩ (Nat.zero_add _).symm,
    xdbl_row x0 x1 x2 x3 x4 t v0 v3 v8 v12 v19 h0 h3 h8 h12 h19, h26, val_main_v16_apply]
  exact congrArg₂ (· * ·) (congrArg _ (by idx2)) (congrArg _ (by idx2))

theorem sp_max_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (h26 : ∀ (k : Fin 32) (c : Fin 1024), v26 (ix2 k c) = val_main_v19 (F := Ideal) x5 (ix2 k c))
    (h29 : ∀ c : Fin 1024, v29 (ix2 (0 : Fin 1) c) = x6 (ix1 c))
    (r c : Fin 1024) :
    k0_pay9 v0 v3 v8 v12 v19 v26 v29 (ix2 r c) = val_main_call1_v1 (F := Ideal) x0 x1 x2 x3 x4 x5 x6 (ix2 (grow t r) c) := by
  rw [val_main_call1_v1_apply, val_main_call1_v0_apply, val_main_call1_cst_apply]
  unfold k0_pay9
  try dsimp only
  rw [maximumf_apply, u_row x0 x1 x2 x3 x4 x5 x6 t v0 v3 v8 v12 v19 v26 v29 h0 h3 h8 h12 h19 h26 h29]
  rfl

theorem sp_sub_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (h26 : ∀ (k : Fin 32) (c : Fin 1024), v26 (ix2 k c) = val_main_v19 (F := Ideal) x5 (ix2 k c))
    (h29 : ∀ c : Fin 1024, v29 (ix2 (0 : Fin 1) c) = x6 (ix1 c))
    (r c : Fin 1024) :
    k0_pay10 v0 v3 v8 v12 v19 v26 v29 (ix2 r c) = val_main_call1_v3 (F := Ideal) x0 x1 x2 x3 x4 x5 x6 (ix2 (grow t r) c) := by
  rw [val_main_call1_v3_apply, val_main_call1_v2_apply, val_main_call1_cst_apply]
  unfold k0_pay10
  try dsimp only
  rw [subf_apply, u_row x0 x1 x2 x3 x4 x5 x6 t v0 v3 v8 v12 v19 v26 v29 h0 h3 h8 h12 h19 h26 h29]
  rfl

/-- The kernel's ordered "not equal" and the reference's unordered one are the same test on the extended reals. -/
theorem sp_cmp_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (h26 : ∀ (k : Fin 32) (c : Fin 1024), v26 (ix2 k c) = val_main_v19 (F := Ideal) x5 (ix2 k c))
    (h29 : ∀ c : Fin 1024, v29 (ix2 (0 : Fin 1) c) = x6 (ix1 c))
    (r c : Fin 1024) :
    k0_pay11 v0 v3 v8 v12 v19 v26 v29 (ix2 r c) = val_main_call1_v4 (F := Ideal) x0 x1 x2 x3 x4 x5 x6 (ix2 (grow t r) c) := by
  rw [val_main_call1_v4_apply]
  unfold k0_pay11
  try dsimp only
  rw [cmpf_apply, sp_sub_row x0 x1 x2 x3 x4 x5 x6 t v0 v3 v8 v12 v19 v26 v29 h0 h3 h8 h12 h19 h26 h29]
  rfl

theorem sp_add_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (h26 : ∀ (k : Fin 32) (c : Fin 1024), v26 (ix2 k c) = val_main_v19 (F := Ideal) x5 (ix2 k c))
    (h29 : ∀ c : Fin 1024, v29 (ix2 (0 : Fin 1) c) = x6 (ix1 c))
    (r c : Fin 1024) :
    k0_pay12 v0 v3 v8 v12 v19 v26 v29 (ix2 r c) = val_main_call1_v6 (F := Ideal) x0 x1 x2 x3 x4 x5 x6 (ix2 (grow t r) c) := by
  rw [val_main_call1_v6_apply, val_main_call1_v5_apply, val_main_call1_cst_apply]
  unfold k0_pay12
  try dsimp only
  rw [addf_apply, u_row x0 x1 x2 x3 x4 x5 x6 t v0 v3 v8 v12 v19 v26 v29 h0 h3 h8 h12 h19 h26 h29]
  rfl

theorem sp_abs_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (h26 : ∀ (k : Fin 32) (c : Fin 1024), v26 (ix2 k c) = val_main_v19 (F := Ideal) x5 (ix2 k c))
    (h29 : ∀ c : Fin 1024, v29 (ix2 (0 : Fin 1) c) = x6 (ix1 c))
    (r c : Fin 1024) :
    k0_pay13 v0 v3 v8 v12 v19 v26 v29 (ix2 r c) = val_main_call1_v7 (F := Ideal) x0 x1 x2 x3 x4 x5 x6 (ix2 (grow t r) c) := by
  rw [val_main_call1_v7_apply]
  unfold k0_pay13
  try dsimp only
  rw [absf_apply, sp_sub_row x0 x1 x2 x3 x4 x5 x6 t v0 v3 v8 v12 v19 v26 v29 h0 h3 h8 h12 h19 h26 h29]
  rfl

end

end Cert.Rows

end
-- ==== Proof.BodyValue.lean ====
/-
  The value the kernel body stores, read at an entry.

  After the shared prefix the body forms, per token row, `y = (softplus(u) * x * (∑ s, B s * C s) + D * x) * silu(z)`
  and stores `y · W + b`.  Entry `(r, c)` of `y` for block `t` is the reference's `y` at `(t * 1024 + r, c)`: the
  softplus is assembled from the same five pieces on both sides (the comparison never fires: no extended real differs
  from itself), `0 - a` is `-a`, a sum started from `0` is the sum, and `x * σ(x)` is `x * (1 / (1 + e^(-x)))`.
-/
import proofs.«159131_j41618233098296_2_alg».proof.Proof.Rows

noncomputable section

namespace Cert.BodyValue

open Idealize.ShloMosaic Idealize.ShloMosaic.ValueIdx Cert.KernelIdeal Cert.KernelIdeal.Gen Cert.ReferenceIdeal.Read Cert.KernelDots Cert.Rows

/-- A sum along the 16 state columns of a row. -/
theorem bc_sum (src : FVec Ideal S1024x16 .f32) (r : Fin 1024) :
    multiReduction .add [1] S1024 src 0x00000000#32 reduces_S1024x16_S1024 (.inl rfl) rfl (ix1 r) = ∑ k : Fin 16, src (ix2 r k) := by
  refine (Ideal.multiReduction_add_single src 0x00000000#32 reduces_S1024x16_S1024 (.inl rfl) rfl (ix1 r)).trans ?_
  exact Finset.sum_congr rfl fun k _ => congrArg src (Cert.LibColumn.lift_row _ r k)

theorem scalar_ofBits (b : BitVec 32) : Scalar.ofBits (F := Ideal) .f32 b = Ideal.ofBits .f32 b := rfl

/-- The body's `y`, before the head product, from the eight carried values and the `D` row. -/
def yBlock (w7 w17 : FVec Ideal S1024x1024 .f32) (w23 w24 : FVec Ideal S1024x16 .f32) (w34 : FVec Ideal S1024x1024 .f32)
    (w37 : IVec S1024x1024 1) (w39 w40 : FVec Ideal S1024x1024 .f32) (v53 : Vec Ideal S1x1024 .f32) : FVec Ideal S1024x1024 .f32 :=
  mulf (addf (mulf (mulf (select w37 w39 (addf w34 (log1p (exp (subf (broadcast S1024x1024 (Scalar.ofBits .f32 0x00000000#32)) w40))))) w17)
        (broadcastTo S1024x1024 (shapeCast S1024x1 (multiReduction .add [1] S1024 (mulf w23 w24) 0x00000000#32 reduces_S1024x16_S1024 (.inl rfl) rfl)
          shapeCasts_S1024_S1024x1) broadcasts_S1024x1_S1024x1024))
      (mulf (broadcastTo S1024x1024 (shapeCast S1x1024 v53 shapeCasts_S1x1024_S1x1024) broadcasts_S1x1024_S1024x1024) w17))
    (mulf w7 (logistic w7))

/-- The stored value is `y · W + b`. -/
theorem pay1_eq (w7 w17 : FVec Ideal S1024x1024 .f32) (w23 w24 : FVec Ideal S1024x16 .f32) (w34 : FVec Ideal S1024x1024 .f32)
    (w37 : IVec S1024x1024 1) (w39 w40 : FVec Ideal S1024x1024 .f32) (v53 : Vec Ideal S1x1024 .f32)
    (v62 : Vec Ideal S1024x36 .bf16) (v65 : Vec Ideal S1x36 .f32) :
    k0_pay1 w7 w17 w23 w24 w34 w37 w39 w40 v53 v62 v65
      = addf (matmul dot_S1024x1024_S1024x36_S1024x36_1_0_0_1_n_n none (truncf .bf16 (yBlock w7 w17 w23 w24 w34 w37 w39 w40 v53) bitsLt_bf16_f32)
          (shapeCast S1024x36 v62 shapeCasts_S1024x36_S1024x36 : FVec Ideal S1024x36 .bf16) (constant S1024x36 .f32 0x00000000#32))
        (broadcastTo S1024x36 (shapeCast S1x36 v65 shapeCasts_S1x36_S1x36) broadcasts_S1x36_S1024x36) := rfl

section
variable (x0 : (⟨S32x2048x512, .f32⟩ : BufTy).Contents (Elt Ideal)) (x1 : (⟨S2048x512, .f32⟩ : BufTy).Contents (Elt Ideal))
  (x2 : (⟨S1024x4, .f32⟩ : BufTy).Contents (Elt Ideal)) (x3 : (⟨S1024, .f32⟩ : BufTy).Contents (Elt Ideal))
  (x4 : (⟨S64x1024, .f32⟩ : BufTy).Contents (Elt Ideal)) (x5 : (⟨S1024x32, .f32⟩ : BufTy).Contents (Elt Ideal))
  (x6 x8 : (⟨S1024, .f32⟩ : BufTy).Contents (Elt Ideal))
  (t : Fin 64)
  (v0 : Vec Ideal S1024x512 .f32) (v3 : Vec Ideal S512x2048 .bf16) (v8 v12 : Vec Ideal S1x1024 .f32)
  (v19 : Vec Ideal S1024x64 .bf16) (v26 : Vec Ideal S32x1024 .bf16) (v29 v53 : Vec Ideal S1x1024 .f32)
  (v62 : Vec Ideal S1024x36 .bf16) (v65 : Vec Ideal S1x36 .f32)

theorem y_row (w7 w17 : FVec Ideal S1024x1024 .f32) (w23 w24 : FVec Ideal S1024x16 .f32) (w34 : FVec Ideal S1024x1024 .f32)
    (w37 : IVec S1024x1024 1) (w39 w40 : FVec Ideal S1024x1024 .f32)
    (e7 : ∀ r c : Fin 1024, w7 (ix2 r c) = val_main_v4 (F := Ideal) x0 x1 (ix2 (grow t r) c))
    (e17 : ∀ r c : Fin 1024, w17 (ix2 r c) = val_main_v13 (F := Ideal) x0 x1 x2 x3 (ix2 (grow t r) c))
    (e23 : ∀ (r : Fin 1024) (s : Fin 16), w23 (ix2 r s) = val_main_v17 (F := Ideal) x0 x1 x2 x3 x4 (ix2 (grow t r) s))
    (e24 : ∀ (r : Fin 1024) (s : Fin 16), w24 (ix2 r s) = val_main_v18 (F := Ideal) x0 x1 x2 x3 x4 (ix2 (grow t r) s))
    (e34 : ∀ r c : Fin 1024, w34 (ix2 r c) = val_main_call1_v1 (F := Ideal) x0 x1 x2 x3 x4 x5 x6 (ix2 (grow t r) c))
    (e37 : ∀ r c : Fin 1024, w37 (ix2 r c) = val_main_call1_v4 (F := Ideal) x0 x1 x2 x3 x4 x5 x6 (ix2 (grow t r) c))
    (e39 : ∀ r c : Fin 1024, w39 (ix2 r c) = val_main_call1_v6 (F := Ideal) x0 x1 x2 x3 x4 x5 x6 (ix2 (grow t r) c))
    (e40 : ∀ r c : Fin 1024, w40 (ix2 r c) = val_main_call1_v7 (F := Ideal) x0 x1 x2 x3 x4 x5 x6 (ix2 (grow t r) c))
    (h53 : ∀ c : Fin 1024, v53 (ix2 (0 : Fin 1) c) = x8 (ix1 c))
    (r c : Fin 1024) :
    yBlock w7 w17 w23 w24 w34 w37 w39 w40 v53 (ix2 r c) = val_main_v36 (F := Ideal) x0 x1 x2 x3 x4 x5 x6 x8 (ix2 (grow t r) c) := by
  have i8 : idx_main_v31 (idx_main_v32 (ix2 (grow t r) c)) = ix1 c := by idx1
  have i26 : ∀ k : Fin 16, idx_main_v26 (idx_main_v27 (idx_main_v29 (ix2 (grow t r) c))) k = ix2 (grow t r) k := fun k => by idx2
  have hb : multiReduction .add [1] S1024 (mulf w23 w24) 0x00000000#32 reduces_S1024x16_S1024 (.inl rfl) rfl (ix1 r)
      = ∑ k : Fin 16, val_main_v17 (F := Ideal) x0 x1 x2 x3 x4 (ix2 (grow t r) k) * val_main_v18 (F := Ideal) x0 x1 x2 x3 x4 (ix2 (grow t r) k) :=
    (bc_sum (mulf w23 w24) r).trans (Finset.sum_congr rfl fun k _ => by rw [mulf_apply, e23, e24])
  unfold yBlock
  simp only [val_main_v36_apply, val_main_v34_apply, val_main_v30_apply, val_main_v28_apply, val_main_v24_apply,
    val_main_call1_v11_apply, val_main_call1_v10_apply, val_main_call1_v9_apply, val_main_call1_v8_apply,
    val_main_v29_apply, val_main_v27_apply, val_main_v26_apply, val_main_cst_apply, val_main_v25_apply,
    val_main_v33_apply, val_main_v32_apply, val_main_v31_apply,
    val_main_v35_apply, val_main_call2_v5_apply, val_main_call2_v4_apply, val_main_call2_cst_0_apply, val_main_call2_v3_apply,
    val_main_call2_v2_apply, val_main_call2_cst_apply, val_main_call2_v1_apply, val_main_call2_v0_apply,
    mulf_apply, addf_apply, select_apply, log1p_apply, exp_apply, subf_apply, broadcast_apply, logistic_apply,
    Cert.LibColumn.broadcastTo_a1_ab_apply, Cert.LibColumn.shapeCast_a_a1_apply, broadcastTo_1b_ab_apply, shapeCast_self,
    h53, e7, e17, e23, e24, e34, e37, e39, e40, i8, i26, scalar_ofBits,
    Ideal.addf_def, Ideal.mulf_def, Ideal.hostNegf_def, Ideal.negf_def, Ideal.hostUnary_exp_def, Ideal.hostUnary_log1p_def,
    Ideal.hostDivf_def, Ideal.ofBits_def, Ideal.ofBits_zero_f32, Cert.Scalar.ofBits_one_f32, zero_sub, zero_add, Ideal.logistic]
  rw [hb]

/-- Entry `(r, o)` of the stored block: the reference's `y` row `t * 1024 + r` against the head weight, plus the bias. -/
theorem out_row
    (h0 : ∀ (r : Fin 1024) (k : Fin 512), v0 (ix2 r k) = val_main_v0 (F := Ideal) x0 (ix2 (grow t r) k))
    (h3 : ∀ (k : Fin 512) (c : Fin 2048), v3 (ix2 k c) = val_main_v1 (F := Ideal) x1 (ix2 k c))
    (h8 : ∀ c : Fin 1024, v8 (ix2 (0 : Fin 1) c) = x2 (ix2 c (3 : Fin 4)))
    (h12 : ∀ c : Fin 1024, v12 (ix2 (0 : Fin 1) c) = x3 (ix1 c))
    (h19 : ∀ (k : Fin 1024) (e : Fin 64), v19 (ix2 k e) = val_main_v14 (F := Ideal) x4 (ix2 k e))
    (h26 : ∀ (k : Fin 32) (c : Fin 1024), v26 (ix2 k c) = val_main_v19 (F := Ideal) x5 (ix2 k c))
    (h29 : ∀ c : Fin 1024, v29 (ix2 (0 : Fin 1) c) = x6 (ix1 c))
    (h53 : ∀ c : Fin 1024, v53 (ix2 (0 : Fin 1) c) = x8 (ix1 c))
    (W : Fin 1024 → Fin 36 → EReal) (b : Fin 36 → EReal)
    (h62 : ∀ (k : Fin 1024) (o : Fin 36), v62 (ix2 k o) = W k o)
    (h65 : ∀ o : Fin 36, v65 (ix2 (0 : Fin 1) o) = b o)
    (r : Fin 1024) (o : Fin 36) :
    k0_pay1 (k0_pay3 v0 v3) (k0_pay4 v0 v3 v8 v12) (k0_pay6 v0 v3 v8 v12 v19) (k0_pay7 v0 v3 v8 v12 v19)
        (k0_pay9 v0 v3 v8 v12 v19 v26 v29) (k0_pay11 v0 v3 v8 v12 v19 v26 v29) (k0_pay12 v0 v3 v8 v12 v19 v26 v29)
        (k0_pay13 v0 v3 v8 v12 v19 v26 v29) v53 v62 v65 (ix2 r o)
      = (∑ k : Fin 1024, val_main_v36 (F := Ideal) x0 x1 x2 x3 x4 x5 x6 x8 (ix2 (grow t r) k) * W k o) + b o := by
  rw [pay1_eq, addf_apply, broadcastTo_1b_ab_apply, shapeCast_self, shapeCast_self, h65]
  refine congrArg (· + b o) ((matmul_head (φ₁ := .bf16) (φ₂ := .bf16) _ _ r o).trans (Finset.sum_congr rfl fun k _ => ?_))
  rw [truncf_apply, h62, y_row x0 x1 x2 x3 x4 x5 x6 x8 t v53 _ _ _ _ _ _ _ _
    (z_row x0 x1 t v0 v3 h0 h3) (x_row x0 x1 x2 x3 t v0 v3 v8 v12 h0 h3 h8 h12) (bm_row x0 x1 x2 x3 x4 t v0 v3 v8 v12 v19 h0 h3 h8 h12 h19) (cm_row x0 x1 x2 x3 x4 t v0 v3 v8 v12 v19 h0 h3 h8 h12 h19)
    (sp_max_row x0 x1 x2 x3 x4 x5 x6 t v0 v3 v8 v12 v19 v26 v29 h0 h3 h8 h12 h19 h26 h29) (sp_cmp_row x0 x1 x2 x3 x4 x5 x6 t v0 v3 v8 v12 v19 v26 v29 h0 h3 h8 h12 h19 h26 h29) (sp_add_row x0 x1 x2 x3 x4 x5 x6 t v0 v3 v8 v12 v19 v26 v29 h0 h3 h8 h12 h19 h26 h29) (sp_abs_row x0 x1 x2 x3 x4 x5 x6 t v0 v3 v8 v12 v19 v26 v29 h0 h3 h8 h12 h19 h26 h29) h53 r k]

end

end Cert.BodyValue

end
-- ==== Proof.RefHead.lean ====
/-
  The reference's last stages read at one entry (n, o) of its [65536, 36] result. With A the [65536, 1024]
  array before the two projections, W the [512, 1024] output-projection weights, V the [36, 512]
  classifier weights and b the [36] bias, the reference computes (A · Wᵀ) · Vᵀ + b, the bias broadcast
  down the rows: a transpose reads its operand at the swapped index, a matrix product's entry is the sum
  over the contracted coordinate of the products of the two operands' entries, and a broadcast along the
  rows reads the row vector at the column. So the entry is
    ∑ j < 512, (∑ k < 1024, A (n, k) · W (j, k)) · V (o, j)  +  b o.
-/
import proofs.«159131_j41618233098296_2_alg».proof.Proof.Gen.ReferenceIdeal.Read
import Idealize.ShloMosaic.Lib.ValueIdx

noncomputable section

namespace Cert.RefHead

open Idealize.ShloMosaic Idealize.ShloMosaic.ValueIdx Cert.ReferenceIdeal Cert.ReferenceIdeal.Read

/-- Entry (n, o) of the reference's value after the bias is added, as the double sum above: each stage is
    read at its index, and the indices the stages compose are the coordinate pairs named on the right. -/
theorem head_apply (x0 : (⟨S32x2048x512, .f32⟩ : BufTy).Contents (Elt Ideal)) (x1 : (⟨S2048x512, .f32⟩ : BufTy).Contents (Elt Ideal))
    (x2 : (⟨S1024x4, .f32⟩ : BufTy).Contents (Elt Ideal)) (x3 : (⟨S1024, .f32⟩ : BufTy).Contents (Elt Ideal))
    (x4 : (⟨S64x1024, .f32⟩ : BufTy).Contents (Elt Ideal)) (x5 : (⟨S1024x32, .f32⟩ : BufTy).Contents (Elt Ideal))
    (x6 x8 : (⟨S1024, .f32⟩ : BufTy).Contents (Elt Ideal)) (x9 : (⟨S512x1024, .f32⟩ : BufTy).Contents (Elt Ideal))
    (x10 : (⟨S36x512, .f32⟩ : BufTy).Contents (Elt Ideal)) (x11 : (⟨S36, .f32⟩ : BufTy).Contents (Elt Ideal))
    (n : Fin 65536) (o : Fin 36) :
    val_main_v43 (F := Ideal) x0 x1 x2 x3 x4 x5 x6 x8 x9 x10 x11 (ix2 n o)
      = (∑ j : Fin 512, (∑ k : Fin 1024, val_main_v36 (F := Ideal) x0 x1 x2 x3 x4 x5 x6 x8 (ix2 n k) * x9 (ix2 j k))
            * x10 (ix2 o j)) + x11 (ix1 o) := by
  rw [val_main_v43_apply, val_main_v40_apply, val_main_v42_apply, val_main_v41_apply, Ideal.addf_def]
  refine congrArg₂ (· + ·) (Finset.sum_congr rfl fun j _ => ?_) (congrArg x11 ?_)
  · rw [val_main_v38_apply, val_main_v39_apply]
    refine congrArg₂ (· * ·) (Finset.sum_congr rfl fun k _ => ?_) (congrArg x10 ?_)
    · rw [val_main_v37_apply]
      refine congrArg₂ (· * ·) (congrArg _ ?_) (congrArg x9 ?_)
      · exact funext fun a => Fin.ext (by match a with | ⟨0, _⟩ => rfl | ⟨1, _⟩ => rfl)
      · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

end Cert.RefHead

end
-- ==== Proof.RefReal.lean ====
/-
  Every stage of the reference program up to the gated activation is a real number at every index when the
  arguments are: each stage is a sum, product, difference, maximum, negation, exponential, logistic quotient
  or `log (1 + e^w)` of earlier stages, and the real numbers are closed under all of these inside the
  extended reals. The stages are taken in program order through the generated reading lemmas.
-/
import proofs.«159131_j41618233098296_2_alg».proof.Proof.Gen.ReferenceIdeal.Read
import proofs.«159131_j41618233098296_2_alg».proof.Proof.RealVal
import proofs.«159131_j41618233098296_2_alg».proof.Proof.Scalar

open Idealize.ShloMosaic
open Cert.ReferenceIdeal Cert.ReferenceIdeal.Read
open Cert.RealVal Cert.Scalar
open scoped BigOperators

namespace Cert.RefReal

theorem v0_real (x0 : FVec Ideal S32x2048x512 .f32) (h0 : AllReal x0) :
    AllReal (val_main_v0 (F := Ideal) x0) := by
  intro i
  rw [val_main_v0_apply]
  exact h0 _

theorem v1_real (x1 : FVec Ideal S2048x512 .f32) (h1 : AllReal x1) :
    AllReal (val_main_v1 (F := Ideal) x1) := by
  intro i
  rw [val_main_v1_apply]
  exact h1 _

/-- A contraction of real factors is a finite sum of real products. -/
theorem v2_real (x0 : FVec Ideal S32x2048x512 .f32) (x1 : FVec Ideal S2048x512 .f32) (h0 : AllReal x0) (h1 : AllReal x1) :
    AllReal (val_main_v2 (F := Ideal) x0 x1) := by
  intro i
  rw [val_main_v2_apply]
  exact IsReal.sum _ _ (fun k _ => IsReal.mul (v0_real x0 h0 _) (v1_real x1 h1 _))

theorem v3_real (x0 : FVec Ideal S32x2048x512 .f32) (x1 : FVec Ideal S2048x512 .f32) (h0 : AllReal x0) (h1 : AllReal x1) :
    AllReal (val_main_v3 (F := Ideal) x0 x1) := by
  intro i
  rw [val_main_v3_apply]
  exact (v2_real x0 x1 h0 h1 _)

theorem v4_real (x0 : FVec Ideal S32x2048x512 .f32) (x1 : FVec Ideal S2048x512 .f32) (h0 : AllReal x0) (h1 : AllReal x1) :
    AllReal (val_main_v4 (F := Ideal) x0 x1) := by
  intro i
  rw [val_main_v4_apply]
  exact (v2_real x0 x1 h0 h1 _)

theorem v5_real (x2 : FVec Ideal S1024x4 .f32) (h2 : AllReal x2) :
    AllReal (val_main_v5 (F := Ideal) x2) := by
  intro i
  rw [val_main_v5_apply]
  exact h2 _

theorem v6_real (x2 : FVec Ideal S1024x4 .f32) (h2 : AllReal x2) :
    AllReal (val_main_v6 (F := Ideal) x2) := by
  intro i
  rw [val_main_v6_apply]
  exact (v5_real x2 h2 _)

theorem v7_real (x2 : FVec Ideal S1024x4 .f32) (h2 : AllReal x2) :
    AllReal (val_main_v7 (F := Ideal) x2) := by
  intro i
  rw [val_main_v7_apply]
  exact (v6_real x2 h2 _)

theorem v8_real (x2 : FVec Ideal S1024x4 .f32) (h2 : AllReal x2) :
    AllReal (val_main_v8 (F := Ideal) x2) := by
  intro i
  rw [val_main_v8_apply]
  exact (v7_real x2 h2 _)

theorem v9_real (x0 : FVec Ideal S32x2048x512 .f32) (x1 : FVec Ideal S2048x512 .f32) (x2 : FVec Ideal S1024x4 .f32) (h0 : AllReal x0) (h1 : AllReal x1) (h2 : AllReal x2) :
    AllReal (val_main_v9 (F := Ideal) x0 x1 x2) := by
  intro i
  rw [val_main_v9_apply]
  exact IsReal.mul (v3_real x0 x1 h0 h1 i) (v8_real x2 h2 i)

theorem v10_real (x3 : FVec Ideal S1024 .f32) (h3 : AllReal x3) :
    AllReal (val_main_v10 (F := Ideal) x3) := by
  intro i
  rw [val_main_v10_apply]
  exact h3 _

theorem v11_real (x3 : FVec Ideal S1024 .f32) (h3 : AllReal x3) :
    AllReal (val_main_v11 (F := Ideal) x3) := by
  intro i
  rw [val_main_v11_apply]
  exact (v10_real x3 h3 _)

theorem v12_real (x0 : FVec Ideal S32x2048x512 .f32) (x1 : FVec Ideal S2048x512 .f32) (x2 : FVec Ideal S1024x4 .f32) (x3 : FVec Ideal S1024 .f32) (h0 : AllReal x0) (h1 : AllReal x1) (h2 : AllReal x2) (h3 : AllReal x3) :
    AllReal (val_main_v12 (F := Ideal) x0 x1 x2 x3) := by
  intro i
  rw [val_main_v12_apply]
  exact IsReal.add (v9_real x0 x1 x2 h0 h1 h2 i) (v11_real x3 h3 i)

theorem call0_v2_eq (i : S65536x1024.Idx) : val_main_call0_v2 (F := Ideal) i = (1 : EReal) := by
  rw [val_main_call0_v2_apply, val_main_call0_cst_apply]
  exact ofBits_one_f32

theorem call0_v4_eq (i : S65536x1024.Idx) : val_main_call0_v4 (F := Ideal) i = (1 : EReal) := by
  rw [val_main_call0_v4_apply, val_main_call0_cst_0_apply]
  exact ofBits_one_f32

/-- The quotient inside the first silu is `1 / (1 + e^(-v))` at the value `v` it is applied to. -/
theorem call0_v5_eq (x0 : FVec Ideal S32x2048x512 .f32) (x1 : FVec Ideal S2048x512 .f32) (x2 : FVec Ideal S1024x4 .f32) (x3 : FVec Ideal S1024 .f32) (i : S65536x1024.Idx) :
    val_main_call0_v5 (F := Ideal) x0 x1 x2 x3 i
      = Ideal.div 1 (1 + Ideal.exp (-(val_main_v12 (F := Ideal) x0 x1 x2 x3 i))) := by
  rw [val_main_call0_v5_apply, val_main_call0_v3_apply, val_main_call0_v1_apply, val_main_call0_v0_apply,
    call0_v4_eq, call0_v2_eq]
  rfl

theorem call0_v5_real (x0 : FVec Ideal S32x2048x512 .f32) (x1 : FVec Ideal S2048x512 .f32) (x2 : FVec Ideal S1024x4 .f32) (x3 : FVec Ideal S1024 .f32) (h0 : AllReal x0) (h1 : AllReal x1) (h2 : AllReal x2) (h3 : AllReal x3) :
    AllReal (val_main_call0_v5 (F := Ideal) x0 x1 x2 x3) := by
  intro i
  rw [call0_v5_eq]
  exact IsReal.div_one_add_exp (v12_real x0 x1 x2 x3 h0 h1 h2 h3 i)

theorem v13_real (x0 : FVec Ideal S32x2048x512 .f32) (x1 : FVec Ideal S2048x512 .f32) (x2 : FVec Ideal S1024x4 .f32) (x3 : FVec Ideal S1024 .f32) (h0 : AllReal x0) (h1 : AllReal x1) (h2 : AllReal x2) (h3 : AllReal x3) :
    AllReal (val_main_v13 (F := Ideal) x0 x1 x2 x3) := by
  intro i
  rw [val_main_v13_apply]
  exact IsReal.mul (v12_real x0 x1 x2 x3 h0 h1 h2 h3 i) (call0_v5_real x0 x1 x2 x3 h0 h1 h2 h3 i)

theorem v14_real (x4 : FVec Ideal S64x1024 .f32) (h4 : AllReal x4) :
    AllReal (val_main_v14 (F := Ideal) x4) := by
  intro i
  rw [val_main_v14_apply]
  exact h4 _

/-- A contraction of real factors is a finite sum of real products. -/
theorem v15_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v15 (F := Ideal) x0 x1 x2 x3 x4) := by
  intro i
  rw [val_main_v15_apply]
  exact IsReal.sum _ _ (fun k _ => IsReal.mul (v13_real x0 x1 x2 x3 h0 h1 h2 h3 _) (v14_real x4 h4 _))

theorem v16_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v16 (F := Ideal) x0 x1 x2 x3 x4) := by
  intro i
  rw [val_main_v16_apply]
  exact (v15_real x0 x1 x2 x3 x4 h0 h1 h2 h3 h4 _)

theorem v17_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v17 (F := Ideal) x0 x1 x2 x3 x4) := by
  intro i
  rw [val_main_v17_apply]
  exact (v15_real x0 x1 x2 x3 x4 h0 h1 h2 h3 h4 _)

theorem v18_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v18 (F := Ideal) x0 x1 x2 x3 x4) := by
  intro i
  rw [val_main_v18_apply]
  exact (v15_real x0 x1 x2 x3 x4 h0 h1 h2 h3 h4 _)

theorem v19_real (x5 : FVec Ideal S1024x32 .f32) (h5 : AllReal x5) :
    AllReal (val_main_v19 (F := Ideal) x5) := by
  intro i
  rw [val_main_v19_apply]
  exact h5 _

/-- A contraction of real factors is a finite sum of real products. -/
theorem v20_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (h0 : AllReal x0) (h1 : AllReal x1) (h2 : AllReal x2) (h3 : AllReal x3) (h4 : AllReal x4) (h5 : AllReal x5) :
    AllReal (val_main_v20 (F := Ideal) x0 x1 x2 x3 x4 x5) := by
  intro i
  rw [val_main_v20_apply]
  exact IsReal.sum _ _ (fun k _ => IsReal.mul (v16_real x0 x1 x2 x3 x4 h0 h1 h2 h3 h4 _) (v19_real x5 h5 _))

theorem v21_real (x6 : FVec Ideal S1024 .f32) (h6 : AllReal x6) :
    AllReal (val_main_v21 (F := Ideal) x6) := by
  intro i
  rw [val_main_v21_apply]
  exact h6 _

theorem v22_real (x6 : FVec Ideal S1024 .f32) (h6 : AllReal x6) :
    AllReal (val_main_v22 (F := Ideal) x6) := by
  intro i
  rw [val_main_v22_apply]
  exact (v21_real x6 h6 _)

theorem v23_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_v23 (F := Ideal) x0 x1 x2 x3 x4 x5 x6) := by
  intro i
  rw [val_main_v23_apply]
  exact IsReal.add (v20_real x0 x1 x2 x3 x4 x5 h0 h1 h2 h3 h4 h5 i) (v22_real x6 h6 i)

theorem call1_v0_real : AllReal (val_main_call1_v0 (F := Ideal)) := by
  intro i
  rw [val_main_call1_v0_apply, val_main_call1_cst_apply]
  show IsReal (Ideal.ofBits .f32 0x00000000#32)
  rw [Ideal.ofBits_zero_f32]
  exact isReal_zero

theorem call1_v2_real : AllReal (val_main_call1_v2 (F := Ideal)) := by
  intro i
  rw [val_main_call1_v2_apply, val_main_call1_cst_apply]
  show IsReal (Ideal.ofBits .f32 0x00000000#32)
  rw [Ideal.ofBits_zero_f32]
  exact isReal_zero

theorem call1_v5_real : AllReal (val_main_call1_v5 (F := Ideal)) := by
  intro i
  rw [val_main_call1_v5_apply, val_main_call1_cst_apply]
  show IsReal (Ideal.ofBits .f32 0x00000000#32)
  rw [Ideal.ofBits_zero_f32]
  exact isReal_zero

theorem call1_v1_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_call1_v1 (F := Ideal) x0 x1 x2 x3 x4 x5 x6) := by
  intro i
  rw [val_main_call1_v1_apply]
  exact IsReal.max (v23_real x0 x1 x2 x3 x4 x5 x6 h0 h1 h2 h3 h4 h5 h6 i) (call1_v0_real i)

theorem call1_v3_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_call1_v3 (F := Ideal) x0 x1 x2 x3 x4 x5 x6) := by
  intro i
  rw [val_main_call1_v3_apply]
  exact IsReal.sub (v23_real x0 x1 x2 x3 x4 x5 x6 h0 h1 h2 h3 h4 h5 h6 i) (call1_v2_real i)

theorem call1_v6_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_call1_v6 (F := Ideal) x0 x1 x2 x3 x4 x5 x6) := by
  intro i
  rw [val_main_call1_v6_apply]
  exact IsReal.add (v23_real x0 x1 x2 x3 x4 x5 x6 h0 h1 h2 h3 h4 h5 h6 i) (call1_v5_real i)

theorem call1_v7_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_call1_v7 (F := Ideal) x0 x1 x2 x3 x4 x5 x6) := by
  intro i
  rw [val_main_call1_v7_apply]
  exact IsReal.abs (call1_v3_real x0 x1 x2 x3 x4 x5 x6 h0 h1 h2 h3 h4 h5 h6 i)

theorem call1_v8_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_call1_v8 (F := Ideal) x0 x1 x2 x3 x4 x5 x6) := by
  intro i
  rw [val_main_call1_v8_apply]
  exact IsReal.neg (call1_v7_real x0 x1 x2 x3 x4 x5 x6 h0 h1 h2 h3 h4 h5 h6 i)

/-- `log (1 + e^w)` at a real `w`: stated through the exponential, since `log (1 + t)` is not a real number for real `t ≤ -1`. -/
theorem call1_v10_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_call1_v10 (F := Ideal) x0 x1 x2 x3 x4 x5 x6) := by
  intro i
  rw [val_main_call1_v10_apply, val_main_call1_v9_apply]
  exact IsReal.log1p_exp (call1_v8_real x0 x1 x2 x3 x4 x5 x6 h0 h1 h2 h3 h4 h5 h6 i)

theorem call1_v11_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_call1_v11 (F := Ideal) x0 x1 x2 x3 x4 x5 x6) := by
  intro i
  rw [val_main_call1_v11_apply]
  exact IsReal.add (call1_v1_real x0 x1 x2 x3 x4 x5 x6 h0 h1 h2 h3 h4 h5 h6 i) (call1_v10_real x0 x1 x2 x3 x4 x5 x6 h0 h1 h2 h3 h4 h5 h6 i)

/-- Either branch of the softplus select is a real number. -/
theorem v24_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_v24 (F := Ideal) x0 x1 x2 x3 x4 x5 x6) := by
  intro i
  rw [val_main_v24_apply]
  exact IsReal.select _ (call1_v6_real x0 x1 x2 x3 x4 x5 x6 h0 h1 h2 h3 h4 h5 h6 i) (call1_v11_real x0 x1 x2 x3 x4 x5 x6 h0 h1 h2 h3 h4 h5 h6 i)

theorem v25_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v25 (F := Ideal) x0 x1 x2 x3 x4) := by
  intro i
  rw [val_main_v25_apply]
  exact IsReal.mul (v17_real x0 x1 x2 x3 x4 h0 h1 h2 h3 h4 i) (v18_real x0 x1 x2 x3 x4 h0 h1 h2 h3 h4 i)

theorem cst_real : AllReal (val_main_cst (F := Ideal)) := by
  intro i
  rw [val_main_cst_apply]
  show IsReal (Ideal.ofBits .f32 0x00000000#32)
  rw [Ideal.ofBits_zero_f32]
  exact isReal_zero

theorem v26_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v26 (F := Ideal) x0 x1 x2 x3 x4) := by
  intro i
  rw [val_main_v26_apply]
  exact IsReal.add (cst_real _) (IsReal.sum _ _ (fun k _ => (v25_real x0 x1 x2 x3 x4 h0 h1 h2 h3 h4 _)))

theorem v27_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v27 (F := Ideal) x0 x1 x2 x3 x4) := by
  intro i
  rw [val_main_v27_apply]
  exact (v26_real x0 x1 x2 x3 x4 h0 h1 h2 h3 h4 _)

theorem v28_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_v28 (F := Ideal) x0 x1 x2 x3 x4 x5 x6) := by
  intro i
  rw [val_main_v28_apply]
  exact IsReal.mul (v24_real x0 x1 x2 x3 x4 x5 x6 h0 h1 h2 h3 h4 h5 h6 i) (v13_real x0 x1 x2 x3 h0 h1 h2 h3 i)

theorem v29_real (x0 : FVec Ideal S32x2048x512 .f32) (x1 : FVec Ideal S2048x512 .f32) (x2 : FVec Ideal S1024x4 .f32) (x3 : FVec Ideal S1024 .f32) (x4 : FVec Ideal S64x1024 .f32) (h0 : AllReal x0) (h1 : AllReal x1) (h2 : AllReal x2) (h3 : AllReal x3) (h4 : AllReal x4) :
    AllReal (val_main_v29 (F := Ideal) x0 x1 x2 x3 x4) := by
  intro i
  rw [val_main_v29_apply]
  exact (v27_real x0 x1 x2 x3 x4 h0 h1 h2 h3 h4 _)

theorem v30_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (h0 : AllReal x0) (h1 : AllReal x1) (h2 : AllReal x2) (h3 : AllReal x3) (h4 : AllReal x4) (h5 : AllReal x5) (h6 : AllReal x6) :
    AllReal (val_main_v30 (F := Ideal) x0 x1 x2 x3 x4 x5 x6) := by
  intro i
  rw [val_main_v30_apply]
  exact IsReal.mul (v28_real x0 x1 x2 x3 x4 x5 x6 h0 h1 h2 h3 h4 h5 h6 i) (v29_real x0 x1 x2 x3 x4 h0 h1 h2 h3 h4 i)

theorem v31_real (x8 : FVec Ideal S1024 .f32) (h8 : AllReal x8) :
    AllReal (val_main_v31 (F := Ideal) x8) := by
  intro i
  rw [val_main_v31_apply]
  exact h8 _

theorem v32_real (x8 : FVec Ideal S1024 .f32) (h8 : AllReal x8) :
    AllReal (val_main_v32 (F := Ideal) x8) := by
  intro i
  rw [val_main_v32_apply]
  exact (v31_real x8 h8 _)

theorem v33_real (x0 : FVec Ideal S32x2048x512 .f32) (x1 : FVec Ideal S2048x512 .f32) (x2 : FVec Ideal S1024x4 .f32) (x3 : FVec Ideal S1024 .f32) (x8 : FVec Ideal S1024 .f32) (h0 : AllReal x0) (h1 : AllReal x1) (h2 : AllReal x2) (h3 : AllReal x3) (h8 : AllReal x8) :
    AllReal (val_main_v33 (F := Ideal) x0 x1 x2 x3 x8) := by
  intro i
  rw [val_main_v33_apply]
  exact IsReal.mul (v32_real x8 h8 i) (v13_real x0 x1 x2 x3 h0 h1 h2 h3 i)

theorem v34_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (x8 : FVec Ideal S1024 .f32) (h0 : AllReal x0) (h1 : AllReal x1) (h2 : AllReal x2) (h3 : AllReal x3) (h4 : AllReal x4) (h5 : AllReal x5) (h6 : AllReal x6) (h8 : AllReal x8) :
    AllReal (val_main_v34 (F := Ideal) x0 x1 x2 x3 x4 x5 x6 x8) := by
  intro i
  rw [val_main_v34_apply]
  exact IsReal.add (v30_real x0 x1 x2 x3 x4 x5 x6 h0 h1 h2 h3 h4 h5 h6 i) (v33_real x0 x1 x2 x3 x8 h0 h1 h2 h3 h8 i)

theorem call2_v2_eq (i : S65536x1024.Idx) : val_main_call2_v2 (F := Ideal) i = (1 : EReal) := by
  rw [val_main_call2_v2_apply, val_main_call2_cst_apply]
  exact ofBits_one_f32

theorem call2_v4_eq (i : S65536x1024.Idx) : val_main_call2_v4 (F := Ideal) i = (1 : EReal) := by
  rw [val_main_call2_v4_apply, val_main_call2_cst_0_apply]
  exact ofBits_one_f32

/-- The quotient inside the second silu is `1 / (1 + e^(-v))` at the value `v` it is applied to. -/
theorem call2_v5_eq (x0 : FVec Ideal S32x2048x512 .f32) (x1 : FVec Ideal S2048x512 .f32) (i : S65536x1024.Idx) :
    val_main_call2_v5 (F := Ideal) x0 x1 i
      = Ideal.div 1 (1 + Ideal.exp (-(val_main_v4 (F := Ideal) x0 x1 i))) := by
  rw [val_main_call2_v5_apply, val_main_call2_v3_apply, val_main_call2_v1_apply, val_main_call2_v0_apply,
    call2_v4_eq, call2_v2_eq]
  rfl

theorem call2_v5_real (x0 : FVec Ideal S32x2048x512 .f32) (x1 : FVec Ideal S2048x512 .f32) (h0 : AllReal x0) (h1 : AllReal x1) :
    AllReal (val_main_call2_v5 (F := Ideal) x0 x1) := by
  intro i
  rw [call2_v5_eq]
  exact IsReal.div_one_add_exp (v4_real x0 x1 h0 h1 i)

theorem v35_real (x0 : FVec Ideal S32x2048x512 .f32) (x1 : FVec Ideal S2048x512 .f32) (h0 : AllReal x0) (h1 : AllReal x1) :
    AllReal (val_main_v35 (F := Ideal) x0 x1) := by
  intro i
  rw [val_main_v35_apply]
  exact IsReal.mul (v4_real x0 x1 h0 h1 i) (call2_v5_real x0 x1 h0 h1 i)

/-- Every entry of the gated activation the last two contractions consume is a real number when the arguments are. -/
theorem y_real (x0 : FVec Ideal S32x2048x512 .f32) (x1 : FVec Ideal S2048x512 .f32) (x2 : FVec Ideal S1024x4 .f32) (x3 : FVec Ideal S1024 .f32) (x4 : FVec Ideal S64x1024 .f32) (x5 : FVec Ideal S1024x32 .f32) (x6 : FVec Ideal S1024 .f32) (x8 : FVec Ideal S1024 .f32)
    (h0 : AllReal x0) (h1 : AllReal x1) (h2 : AllReal x2) (h3 : AllReal x3) (h4 : AllReal x4) (h5 : AllReal x5) (h6 : AllReal x6) (h8 : AllReal x8) :
    AllReal (Cert.ReferenceIdeal.Read.val_main_v36 (F := Ideal) x0 x1 x2 x3 x4 x5 x6 x8) := by
  intro i
  rw [val_main_v36_apply]
  exact IsReal.mul (v34_real x0 x1 x2 x3 x4 x5 x6 x8 h0 h1 h2 h3 h4 h5 h6 h8 i) (v35_real x0 x1 h0 h1 i)

end Cert.RefReal
-- ==== Proof.FiniteInputs.lean ====
/-
  Every argument array is real-valued under the precondition. The precondition is the conjunction, over the
  twelve arguments X, of "every entry of |X| is strictly below +∞", each written as a reduction by "and" of
  the entrywise comparison |X| < +∞ over all axes, starting from 1. On the extended reals |x| is
  max x (-x), and max x (-x) < ⊤ excludes both ⊤ (where x = ⊤) and ⊥ (where -x = ⊤): what is left is a real
  number. The bit pattern 0x7F800000 of the comparison's right side denotes ⊤.
-/
import proofs.«159131_j41618233098296_2_alg».proof.Proof.RealVal
import proofs.«159131_j41618233098296_2_alg».proof.Proof.Gen.Pre_finite_inputs
import Idealize.ShloMosaic.Lib.ReduceAll
import Idealize.ShloMosaic.Lib.ValueIdx

noncomputable section

namespace Cert.FiniteInputs

open Idealize.ShloMosaic Cert.RealVal Cert.Pre_finite_inputs

/-- The rank-0 shape has exactly one index. -/
instance : Subsingleton S_.Idx := ⟨fun a b => funext fun d => d.elim0⟩

/-- An extended real whose absolute value max x (-x) lies strictly below ⊤ is a real number:
    at ⊥ the negation is ⊤, at ⊤ the value itself is. -/
theorem isReal_of_abs_lt_top (x : EReal) (h : max x (-x) < ⊤) : IsReal x := by
  induction x using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- The f32 pattern with all exponent bits set, a clear sign and a zero fraction denotes +∞. -/
theorem inf_eq_top : Ideal.ofBits .f32 0x7F800000#32 = (⊤ : EReal) := by simp [Ideal.ofBits, Ideal.ieee]

/-- For an array x of any shape s: if the reduction by "and" over all axes of the entrywise comparison
    |x| < +∞ (the right side a rank-0 constant +∞ broadcast to s), started from 1, is 1, then every entry
    of x is a real number. The reduction being 1 gives the comparison 1 at every index; there it reads
    max (x i) (-(x i)) < ⊤. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) :
    AllReal x := by
  intro i
  have hi := Host.reduce_andi_all _ _ hr hu _ e i
  change Ideal.cmp .olt (max (x i) (-(x i))) (Ideal.ofBits .f32 0x7F800000#32) = 1#1 at hi
  rw [inf_eq_top] at hi
  change BitVec.ofBool (decide (max (x i) (-(x i)) < (⊤ : EReal))) = 1#1 at hi
  exact isReal_of_abs_lt_top _ (of_decide_eq_true ((ofBool_eq_one _).1 hi))

/-- The precondition, read at its one index, is a left-nested conjunction of twelve "all entries finite"
    reductions; each conjunct gives its array real-valued by `allReal_of_all`. -/
theorem real_of_pre (x0 : FVec Ideal S32x2048x512 .f32) (x1 : FVec Ideal S2048x512 .f32) (x2 : FVec Ideal S1024x4 .f32)
    (x3 : FVec Ideal S1024 .f32) (x4 : FVec Ideal S64x1024 .f32) (x5 : FVec Ideal S1024x32 .f32) (x6 : FVec Ideal S1024 .f32)
    (x7 : FVec Ideal S1024x16 .f32) (x8 : FVec Ideal S1024 .f32) (x9 : FVec Ideal S512x1024 .f32) (x10 : FVec Ideal S36x512 .f32)
    (x11 : FVec Ideal S36 .f32)
    (h : Cert.Pre_finite_inputs.fn (F := Ideal) x0 x1 x2 x3 x4 x5 x6 x7 x8 x9 x10 x11 = fun _ => 1#1) :
    AllReal x0 ∧ AllReal x1 ∧ AllReal x2 ∧ AllReal x3 ∧ AllReal x4 ∧ AllReal x5 ∧ AllReal x6 ∧ AllReal x8 ∧ AllReal x9
      ∧ AllReal x10 ∧ AllReal x11 := by
  have e := congrFun h ValueIdx.ix0
  dsimp only [fn, fn_part1, fn_part2, fn_part3] at e
  simp only [Idealize.ShloMosaic.andi, IntOp.andi_eq_one] at e
  obtain ⟨⟨⟨⟨⟨⟨⟨⟨⟨⟨⟨h0, h1⟩, h2⟩, h3⟩, h4⟩, h5⟩, h6⟩, -⟩, h8⟩, h9⟩, h10⟩, h11⟩ := e
  exact ⟨allReal_of_all x0 _ _ _ h0, allReal_of_all x1 _ _ _ h1, allReal_of_all x2 _ _ _ h2, allReal_of_all x3 _ _ _ h3,
    allReal_of_all x4 _ _ _ h4, allReal_of_all x5 _ _ _ h5, allReal_of_all x6 _ _ _ h6, allReal_of_all x8 _ _ _ h8,
    allReal_of_all x9 _ _ _ h9, allReal_of_all x10 _ _ _ h10, allReal_of_all x11 _ _ _ h11⟩

end Cert.FiniteInputs

end
-- ==== Proof.KernelArray.lean ====
/-
  The kernel's result array.

  Point `t` writes back block `t` of the reference's `[65536, 36]` result: entry `(r, o)` of the stored block is
  `∑ k, y (t * 1024 + r, k) * (∑ j, fc_w (o, j) * out_proj_w (j, k)) + fc_b o`, and regrouping the product of the three
  matrices — legitimate because `y` and both weights are real-valued when the inputs are finite — gives the reference's
  `∑ j, (∑ k, y (·, k) * out_proj_w (j, k)) * fc_w (o, j) + fc_b o`.  The 64 blocks cover the 65536 rows, so the array
  after the run is that function; the program's last line reshapes it to `[32, 2048, 6, 6]`, as the reference's does.
-/
import proofs.«159131_j41618233098296_2_alg».proof.Proof.Gen.KernelIdeal.Frame
import proofs.«159131_j41618233098296_2_alg».proof.Proof.KernelBlocks
import proofs.«159131_j41618233098296_2_alg».proof.Proof.BodyValue
import proofs.«159131_j41618233098296_2_alg».proof.Proof.RefHead
import proofs.«159131_j41618233098296_2_alg».proof.Proof.RefReal
import proofs.«159131_j41618233098296_2_alg».proof.Proof.Scalar
import proofs.«159131_j41618233098296_2_alg».proof.Proof.FiniteInputs
import proofs.«159131_j41618233098296_2_alg».proof.Defs

noncomputable section

namespace Cert.KernelArray

open Idealize.ShloMosaic Idealize.ShloMosaic.TcCoe Idealize.ShloMosaic.ValueIdx Idealize.SL.Sem Idealize.ShloMosaic.StableHlo
open Cert.KernelIdeal Cert.KernelIdeal.Gen Cert.ReferenceIdeal.Read Cert.Rows Cert.KernelBlocks Cert.RealVal

variable (m : (ℓ : Loc nD τ sig) → Buf (Elt Ideal) ℓ)

theorem hz : (![0, 0] : Fin 2 → Nat) = fun _ => 0 := funext fun a => by fin_cases a <;> rfl

/-- The reference's `[65536, 36]` result, before its last reshape, of the kernel program's arguments. -/
def G (c : Dev nD) : S65536x36.Idx → EReal := val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))

/-- Entry `(r, o)` of what point `t` stores. -/
theorem entry_eq (hpre : Cert.Pre_KernelIdeal m) (c : Dev nD) (t : Fin cfg0.N) (r : Fin 1024) (o : Fin 36) :
    k0_pay1 (k0_pay3 (iblk m c 0 t) (iblk m c 1 t)) (k0_pay4 (iblk m c 0 t) (iblk m c 1 t) (iblk m c 2 t) (iblk m c 3 t)) (k0_pay6 (iblk m c 0 t) (iblk m c 1 t) (iblk m c 2 t) (iblk m c 3 t) (iblk m c 4 t)) (k0_pay7 (iblk m c 0 t) (iblk m c 1 t) (iblk m c 2 t) (iblk m c 3 t) (iblk m c 4 t))
        (k0_pay9 (iblk m c 0 t) (iblk m c 1 t) (iblk m c 2 t) (iblk m c 3 t) (iblk m c 4 t) (iblk m c 5 t) (iblk m c 6 t)) (k0_pay11 (iblk m c 0 t) (iblk m c 1 t) (iblk m c 2 t) (iblk m c 3 t) (iblk m c 4 t) (iblk m c 5 t) (iblk m c 6 t))
        (k0_pay12 (iblk m c 0 t) (iblk m c 1 t) (iblk m c 2 t) (iblk m c 3 t) (iblk m c 4 t) (iblk m c 5 t) (iblk m c 6 t)) (k0_pay13 (iblk m c 0 t) (iblk m c 1 t) (iblk m c 2 t) (iblk m c 3 t) (iblk m c 4 t) (iblk m c 5 t) (iblk m c 6 t))
        (iblk m c 7 t) (iblk m c 8 t) (iblk m c 9 t) (ix2 r o)
      = G m c (ix2 (grow (pt t) r) o) := by
  obtain ⟨h0, h1, h2, h3, h4, h5, h6, h8, h9, h10, h11⟩ := Cert.FiniteInputs.real_of_pre _ _ _ _ _ _ _ _ _ _ _ _ (hpre c)
  unfold G
  rw [Cert.RefHead.head_apply]
  refine (Cert.BodyValue.out_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (pt t)
    (iblk m c 0 t) (iblk m c 1 t) (iblk m c 2 t) (iblk m c 3 t) (iblk m c 4 t) (iblk m c 5 t) (iblk m c 6 t) (iblk m c 7 t) (iblk m c 8 t) (iblk m c 9 t)
    (blk_tokens m c t) (blk_in_w m c t) (blk_conv_w m c t) (blk_conv_b m c t) (blk_x_w m c t) (blk_dt_w m c t) (blk_dt_b m c t) (blk_D m c t)
    (fun k o => ∑ j : Fin 512, fcW m c (ix2 o j) * outProjW m c (ix2 j k)) (fun o => fcB m c (ix1 o))
    (blk_head_w m c t) (blk_fc_b m c t) r o).trans ?_
  exact congrArg (· + fcB m c (ix1 o))
    (Cert.Scalar.head_assoc (fun k => val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (ix2 (grow (pt t) r) k))
      (fun j k => outProjW m c (ix2 j k)) (fun j => fcW m c (ix2 o j))
      (fun k => Cert.RefReal.y_real _ _ _ _ _ _ _ _ h0 h1 h2 h3 h4 h5 h6 h8 _) (fun j k => h9 _) (fun j => h10 _))

/-- What point `t` writes back is block `t` of `G`. -/
theorem flushed_eq (hpre : Cert.Pre_KernelIdeal m) (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  unfold out0_10
  rw [View.canon_unit_zero hz]
  simp only [View.ld_unit_zero (S := S1024x512) hz, View.ld_unit_zero (S := S512x2048) hz, View.ld_unit_zero (S := S1x1024) hz,
    View.ld_unit_zero (S := S1024x64) hz, View.ld_unit_zero (S := S32x1024) hz, View.ld_unit_zero (S := S1024x36) hz,
    View.ld_unit_zero (S := S1x36) hz]
  funext j
  obtain ⟨r, o, rfl⟩ : ∃ (r : Fin 1024) (o : Fin 36), j = ix2 r o := ⟨j 0, j 1, eq_ix2 j⟩
  show k0_pay1 (k0_pay3 (iblk m c 0 t) (iblk m c 1 t)) (k0_pay4 (iblk m c 0 t) (iblk m c 1 t) (iblk m c 2 t) (iblk m c 3 t)) (k0_pay6 (iblk m c 0 t) (iblk m c 1 t) (iblk m c 2 t) (iblk m c 3 t) (iblk m c 4 t)) (k0_pay7 (iblk m c 0 t) (iblk m c 1 t) (iblk m c 2 t) (iblk m c 3 t) (iblk m c 4 t))
        (k0_pay9 (iblk m c 0 t) (iblk m c 1 t) (iblk m c 2 t) (iblk m c 3 t) (iblk m c 4 t) (iblk m c 5 t) (iblk m c 6 t)) (k0_pay11 (iblk m c 0 t) (iblk m c 1 t) (iblk m c 2 t) (iblk m c 3 t) (iblk m c 4 t) (iblk m c 5 t) (iblk m c 6 t))
        (k0_pay12 (iblk m c 0 t) (iblk m c 1 t) (iblk m c 2 t) (iblk m c 3 t) (iblk m c 4 t) (iblk m c 5 t) (iblk m c 6 t)) (k0_pay13 (iblk m c 0 t) (iblk m c 1 t) (iblk m c 2 t) (iblk m c 3 t) (iblk m c 4 t) (iblk m c 5 t) (iblk m c 6 t))
        (iblk m c 7 t) (iblk m c 8 t) (iblk m c 9 t) (ix2 r o)
      = G m c (((cfg0.win 10).blk t).view.emb (ix2 r o))
  rw [emb_out]
  exact entry_eq m hpre c t r o

/-- An index of the result array is in point `t`'s block iff each coordinate is in the block's range on its axis. -/
theorem mem_blk (t : Fin cfg0.N) (i : S65536x36.Idx) :
    i ∈ ((cfg0.win 10).blk t).view.set ↔ ∀ a : Fin 2, win0_10.index t a * S1024x36.size a ≤ (i a).val ∧ (i a).val < win0_10.index t a * S1024x36.size a + S1024x36.size a := by
  show i ∈ ((View.whole main_v17).slice (win0_10.rect t)).set ↔ _
  rw [View.set_slice_whole, Rect.mem_set_unit]
  exact Iff.rfl

/-- The result array after the run: the blocks of rows cover it. -/
theorem final (hpre : Cert.Pre_KernelIdeal m) (c : Dev nD) : (dats m 0 c).arrAt 10 cfg0.N = G m c :=
  (dats m 0 c).arrAt_eq_of_cover 10 (G m c) (fun t _ => flushed_eq m hpre c t) fun i => by
    have hi0 : (i 0).val < 65536 := (i 0).isLt
    have hi1 : (i 1).val < 36 := (i 1).isLt
    have hN : cfg0.N = 64 := N_0
    have hlt : (i 0).val / 1024 < cfg0.N := by omega
    obtain ⟨e0, e1⟩ := index_out ⟨(i 0).val / 1024, hlt⟩
    refine ⟨⟨(i 0).val / 1024, hlt⟩, flush0_10 _, ?_⟩
    rw [mem_blk]
    intro a
    match a with
    | ⟨0, _⟩ =>
      show win0_10.index ⟨(i 0).val / 1024, hlt⟩ (0 : Fin 2) * 1024 ≤ (i 0).val
        ∧ (i 0).val < win0_10.index ⟨(i 0).val / 1024, hlt⟩ (0 : Fin 2) * 1024 + 1024
      have e0' : win0_10.index ⟨(i 0).val / 1024, hlt⟩ (0 : Fin 2) = (i 0).val / 1024 := e0
      omega
    | ⟨1, _⟩ =>
      show win0_10.index ⟨(i 0).val / 1024, hlt⟩ (1 : Fin 2) * 36 ≤ (i 1).val
        ∧ (i 1).val < win0_10.index ⟨(i 0).val / 1024, hlt⟩ (1 : Fin 2) * 36 + 36
      omega

/-- The program's last line reshapes the result array to `[32, 2048, 6, 6]`: the reference's result. -/
theorem tail_eq (hpre : Cert.Pre_KernelIdeal m) (c : Dev nD) :
    Pipeline.afterTail₀ cfgs (dats m) 0 (V0 m) [hostOps1] c main_v18
      = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v18) = _
  after_results
  rw [Pipeline.withArrays_arr spec0 launch0.win.arr_inj c _ _ 10, final m hpre c]
  rfl

/-- The kernel program's run: it terminates with its result at the reference's function of its own arguments, the
    arguments unchanged. -/
theorem run (hpre : Cert.Pre_KernelIdeal m) (ρ : Dev nD → PrngReg) :
    θ_run defs (onTc (τ := τ) (main (F := Ideal))) ⟨m, fun _ => 0, ρ⟩ fun r => ∀ c : Dev nD,
      r.2.mem ((c : Thread nD τ).loc main_v18) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).2 main_v18 (Pipeline.mem_restRefs_of main_v18 (by decide) (by decide))).trans (tail_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelArray

end
-- ==== Proof.lean ====
/-
  A single-step Mamba block over 65536 tokens (in-projection, depthwise-conv tap, silu, x-projection, softplus of the
  dt-projection, the one-step scan `y = (softplus(u) * x * ∑ B C + D * x) * silu(z)`) followed by an output projection and
  a `[512 → 36]` head, as a tiled kernel and as plain array code.

  On the extended reals the two programs differ in three ways only.  The kernel works on blocks of 1024 tokens: every
  operation acts on each token row by itself, so a block of a value is the matching rows of that value computed on all
  tokens (`Rows`, `BodyValue`).  The kernel spells `x * σ(x)`, the reference `x * (1 / (1 + e^(-x)))`, and their
  softplus spellings differ by `0 - a` against `-a` and an ordered against an unordered "≠": the same functions
  (`Rows`, `BodyValue`).  And the kernel multiplies `y` by the product `fc_w · out_proj_w` formed beforehand, where the
  reference multiplies by `out_proj_wᵀ` and then by `fc_wᵀ`: regrouping the three matrices needs the distributive law,
  which on the extended reals holds among real numbers — and `y` and the weights are real because every input is
  finite (`FiniteInputs`, `RefReal`, `Scalar.head_assoc`, used in `KernelArray.entry_eq`).

  The three frames are the generated ones (the reference's is its generated run with the result dropped); the
  idealization rewrote nothing, so `preserves` is trivial.
-/
import proofs.«159131_j41618233098296_2_alg».proof.Defs
import proofs.«159131_j41618233098296_2_alg».proof.Proof.Gen.Kernel
import proofs.«159131_j41618233098296_2_alg».proof.Proof.Gen.Kernel.Frame
import proofs.«159131_j41618233098296_2_alg».proof.Proof.Gen.KernelIdeal
import proofs.«159131_j41618233098296_2_alg».proof.Proof.Gen.KernelIdeal.Frame
import proofs.«159131_j41618233098296_2_alg».proof.Proof.Gen.ReferenceIdeal
import proofs.«159131_j41618233098296_2_alg».proof.Proof.Gen.ReferenceIdeal.Run
import proofs.«159131_j41618233098296_2_alg».proof.Proof.Gen.ReferenceIdeal.Read
import proofs.«159131_j41618233098296_2_alg».proof.Proof.Gen.Pre_finite_inputs
import proofs.«159131_j41618233098296_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the (agreeing) arguments. -/
theorem algebraic : Cert.algebraic_KernelIdeal_ReferenceIdeal := by
  intro m ρ m' ρ' hpre hagree
  refine ⟨_, Cert.KernelArray.run m hpre ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11⟩ := hagree c
  rw [Cert.ReferenceIdeal.Read.val_main_v44_eq, g0, g1, g2, g3, g4, g5, g6, g8, g9, g10, g11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
